-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S6x8 : Shape := ⟨2, ![6, 8]⟩
abbrev S6 : Shape := ⟨1, ![6]⟩
abbrev S6x6 : Shape := ⟨2, ![6, 6]⟩
abbrev S4x6 : Shape := ⟨2, ![4, 6]⟩
abbrev S4 : Shape := ⟨1, ![4]⟩
abbrev S4x4 : Shape := ⟨2, ![4, 4]⟩
abbrev S1x4 : Shape := ⟨2, ![1, 4]⟩
abbrev S1 : Shape := ⟨1, ![1]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S6x8 : S_.BroadcastsInDim S6x8 (![] : Fin 0 → Fin S6x8.rank)
  reducesTo_S6x8_S_d0_1 : S6x8.ReducesTo [0, 1] S_
  bcast_S_S6 : S_.BroadcastsInDim S6 (![] : Fin 0 → Fin S6.rank)
  reducesTo_S6_S_d0 : S6.ReducesTo [0] S_
  bcast_S_S6x6 : S_.BroadcastsInDim S6x6 (![] : Fin 0 → Fin S6x6.rank)
  reducesTo_S6x6_S_d0_1 : S6x6.ReducesTo [0, 1] S_
  bcast_S_S4x6 : S_.BroadcastsInDim S4x6 (![] : Fin 0 → Fin S4x6.rank)
  reducesTo_S4x6_S_d0_1 : S4x6.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1x4 .f32) (main_arg22 : FVec F S1 .f32) (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  let main_v104 : FVec F S1x4 .f32 := Host.absf main_arg21
  let main_cst_40 : FVec F S_ .f32 := constant S_ .f32 0x7F800000#32
  let main_v105 : FVec F S1x4 .f32 := broadcastInDim S1x4 ![] bcast_S_S1x4 main_cst_40
  let main_v106 : IVec S1x4 1 := cmpf .olt main_v104 main_v105
  let main_c_41 : IVec S_ 1 := constantI S_ 1 1#1
  let main_v107 : IVec S_ 1 := (fun x v => Host.reduce IntOp.andi x v reducesTo_S1x4_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S4 .f32) (main_arg19 : FVec F S4x4 .f32) (main_arg20 : FVec F S4 .f32) (main_arg21 : FVec F S1x4 .f32) (main_arg22 : FVec F S1 .f32) (main_v83 : IVec S_ 1) (main_v84 : FVec F S4x4 .f32) (main_cst_32 : FVec F S_ .f32) : IVec S_ 1 :=
  let main_v85 : FVec F S4x4 .f32 := broadcastInDim S4x4 ![] bcast_S_S4x4 main_cst_32
  let main_v86 : IVec S4x4 1 := cmpf .olt main_v84 main_v85
  let main_c_33 : IVec S_ 1 := constantI S_ 1 1#1
  let main_v87 : IVec S_ 1 := (fun x v => Host.reduce IntOp.andi x v reducesTo_S4x4_S_d0_1 h_S_) main_v86 main_c_33
  let main_v88 : IVec S_ 1 := andi main_v83 main_v87
  let main_v89 : FVec F S4 .f32 := Host.absf main_arg18
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  let main_v94 : FVec F S4x4 .f32 := Host.absf main_arg19
  let main_cst_36 : FVec F S_ .f32 := constant S_ .f32 0x7F800000#32
  let main_v95 : FVec F S4x4 .f32 := broadcastInDim S4x4 ![] bcast_S_S4x4 main_cst_36
  let main_v96 : IVec S4x4 1 := cmpf .olt main_v94 main_v95
  let main_c_37 : IVec S_ 1 := constantI S_ 1 1#1
  let main_v97 : IVec S_ 1 := (fun x v => Host.reduce IntOp.andi x v reducesTo_S4x4_S_d0_1 h_S_) main_v96 main_c_37
  let main_v98 : IVec S_ 1 := andi main_v93 main_v97
  let main_v99 : FVec F S4 .f32 := Host.absf main_arg20
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) (main_v63 : IVec S_ 1) (main_v67 : IVec S_ 1) : IVec S_ 1 :=
  let main_v68 : IVec S_ 1 := andi main_v63 main_v67
  let main_v69 : FVec F S4 .f32 := Host.absf main_arg14
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : FVec F S4x4 .f32 := Host.absf main_arg15
  let main_cst_28 : FVec F S_ .f32 := constant S_ .f32 0x7F800000#32
  let main_v75 : FVec F S4x4 .f32 := broadcastInDim S4x4 ![] bcast_S_S4x4 main_cst_28
  let main_v76 : IVec S4x4 1 := cmpf .olt main_v74 main_v75
  let main_c_29 : IVec S_ 1 := constantI S_ 1 1#1
  let main_v77 : IVec S_ 1 := (fun x v => Host.reduce IntOp.andi x v reducesTo_S4x4_S_d0_1 h_S_) main_v76 main_c_29
  let main_v78 : IVec S_ 1 := andi main_v73 main_v77
  let main_v79 : FVec F S4 .f32 := Host.absf main_arg16
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : FVec F S4x4 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S6x6 .f32) (main_arg12 : FVec F S6 .f32) (main_arg13 : FVec F S4x6 .f32) (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  let main_v54 : FVec F S6x6 .f32 := Host.absf main_arg11
  let main_cst_20 : FVec F S_ .f32 := constant S_ .f32 0x7F800000#32
  let main_v55 : FVec F S6x6 .f32 := broadcastInDim S6x6 ![] bcast_S_S6x6 main_cst_20
  let main_v56 : IVec S6x6 1 := cmpf .olt main_v54 main_v55
  let main_c_21 : IVec S_ 1 := constantI S_ 1 1#1
  let main_v57 : IVec S_ 1 := (fun x v => Host.reduce IntOp.andi x v reducesTo_S6x6_S_d0_1 h_S_) main_v56 main_c_21
  let main_v58 : IVec S_ 1 := andi main_v53 main_v57
  let main_v59 : FVec F S6 .f32 := Host.absf main_arg12
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  let main_v64 : FVec F S4x6 .f32 := Host.absf main_arg13
  let main_cst_24 : FVec F S_ .f32 := constant S_ .f32 0x7F800000#32
  let main_v65 : FVec F S4x6 .f32 := broadcastInDim S4x6 ![] bcast_S_S4x6 main_cst_24
  let main_v66 : IVec S4x6 1 := cmpf .olt main_v64 main_v65
  let main_c_25 : IVec S_ 1 := constantI S_ 1 1#1
  let main_v67 : IVec S_ 1 := (fun x v => Host.reduce IntOp.andi x v reducesTo_S4x6_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S6x6 .f32) (main_arg8 : FVec F S6 .f32) (main_arg9 : FVec F S6x6 .f32) (main_arg10 : FVec F S6 .f32) (main_arg11 : FVec F S6x6 .f32) (main_arg12 : FVec F S6 .f32) (main_arg13 : FVec F S4x6 .f32) (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) (main_v33 : IVec S_ 1) : IVec S_ 1 :=
  let main_v34 : FVec F S6x6 .f32 := Host.absf main_arg7
  let main_cst_12 : FVec F S_ .f32 := constant S_ .f32 0x7F800000#32
  let main_v35 : FVec F S6x6 .f32 := broadcastInDim S6x6 ![] bcast_S_S6x6 main_cst_12
  let main_v36 : IVec S6x6 1 := cmpf .olt main_v34 main_v35
  let main_c_13 : IVec S_ 1 := constantI S_ 1 1#1
  let main_v37 : IVec S_ 1 := (fun x v => Host.reduce IntOp.andi x v reducesTo_S6x6_S_d0_1 h_S_) main_v36 main_c_13
  let main_v38 : IVec S_ 1 := andi main_v33 main_v37
  let main_v39 : FVec F S6 .f32 := Host.absf main_arg8
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  let main_v44 : FVec F S6x6 .f32 := Host.absf main_arg9
  let main_cst_16 : FVec F S_ .f32 := constant S_ .f32 0x7F800000#32
  let main_v45 : FVec F S6x6 .f32 := broadcastInDim S6x6 ![] bcast_S_S6x6 main_cst_16
  let main_v46 : IVec S6x6 1 := cmpf .olt main_v44 main_v45
  let main_c_17 : IVec S_ 1 := constantI S_ 1 1#1
  let main_v47 : IVec S_ 1 := (fun x v => Host.reduce IntOp.andi x v reducesTo_S6x6_S_d0_1 h_S_) main_v46 main_c_17
  let main_v48 : IVec S_ 1 := andi main_v43 main_v47
  let main_v49 : FVec F S6 .f32 := Host.absf main_arg10
  let main_cst_18 : FVec F S_ .f32 := constant S_ .f32 0x7F800000#32
  let main_v50 : FVec F S6 .f32 := broadcastInDim S6 ![] bcast_S_S6 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S6 .f32) (main_arg5 : FVec F S6x6 .f32) (main_arg6 : FVec F S6 .f32) (main_arg7 : FVec F S6x6 .f32) (main_arg8 : FVec F S6 .f32) (main_arg9 : FVec F S6x6 .f32) (main_arg10 : FVec F S6 .f32) (main_arg11 : FVec F S6x6 .f32) (main_arg12 : FVec F S6 .f32) (main_arg13 : FVec F S4x6 .f32) (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) (main_v13 : IVec S_ 1) (main_v16 : IVec S6x6 1) : IVec S_ 1 :=
  let main_c_5 : IVec S_ 1 := constantI S_ 1 1#1
  let main_v17 : IVec S_ 1 := (fun x v => Host.reduce IntOp.andi x v reducesTo_S6x6_S_d0_1 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S6x6 .f32 := Host.absf main_arg5
  let main_cst_8 : FVec F S_ .f32 := constant S_ .f32 0x7F800000#32
  let main_v25 : FVec F S6x6 .f32 := broadcastInDim S6x6 ![] bcast_S_S6x6 main_cst_8
  let main_v26 : IVec S6x6 1 := cmpf .olt main_v24 main_v25
  let main_c_9 : IVec S_ 1 := constantI S_ 1 1#1
  let main_v27 : IVec S_ 1 := (fun x v => Host.reduce IntOp.andi x v reducesTo_S6x6_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S4194304x8 .f32) (main_arg1 : FVec F S6x8 .f32) (main_arg2 : FVec F S6 .f32) (main_arg3 : FVec F S6x6 .f32) (main_arg4 : FVec F S6 .f32) (main_arg5 : FVec F S6x6 .f32) (main_arg6 : FVec F S6 .f32) (main_arg7 : FVec F S6x6 .f32) (main_arg8 : FVec F S6 .f32) (main_arg9 : FVec F S6x6 .f32) (main_arg10 : FVec F S6 .f32) (main_arg11 : FVec F S6x6 .f32) (main_arg12 : FVec F S6 .f32) (main_arg13 : FVec F S4x6 .f32) (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S6x8 .f32 := Host.absf main_arg1
  let main_cst_0 : FVec F S_ .f32 := constant S_ .f32 0x7F800000#32
  let main_v5 : FVec F S6x8 .f32 := broadcastInDim S6x8 ![] bcast_S_S6x8 main_cst_0
  let main_v6 : IVec S6x8 1 := cmpf .olt main_v4 main_v5
  let main_c_1 : IVec S_ 1 := constantI S_ 1 1#1
  let main_v7 : IVec S_ 1 := (fun x v => Host.reduce IntOp.andi x v reducesTo_S6x8_S_d0_1 h_S_) main_v6 main_c_1
  let main_v8 : IVec S_ 1 := andi main_v3 main_v7
  let main_v9 : FVec F S6 .f32 := Host.absf main_arg2
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S6x6 .f32 := Host.absf main_arg3
  let main_cst_4 : FVec F S_ .f32 := constant S_ .f32 0x7F800000#32
  let main_v15 : FVec F S6x6 .f32 := broadcastInDim S6x6 ![] bcast_S_S6x6 main_cst_4
  let main_v16 : IVec S6x6 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4194304x8 : Shape := ⟨2, ![4194304, 8]⟩
abbrev S6x8 : Shape := ⟨2, ![6, 8]⟩
abbrev S6 : Shape := ⟨1, ![6]⟩
abbrev S6x6 : Shape := ⟨2, ![6, 6]⟩
abbrev S4x6 : Shape := ⟨2, ![4, 6]⟩
abbrev S4 : Shape := ⟨1, ![4]⟩
abbrev S4x4 : Shape := ⟨2, ![4, 4]⟩
abbrev S1x4 : Shape := ⟨2, ![1, 4]⟩
abbrev S1 : Shape := ⟨1, ![1]⟩
abbrev S1x6 : Shape := ⟨2, ![1, 6]⟩
abbrev S1x1 : Shape := ⟨2, ![1, 1]⟩
abbrev S4194304x1 : Shape := ⟨2, ![4194304, 1]⟩
abbrev S8192x8 : Shape := ⟨2, ![8192, 8]⟩
abbrev S8192x1 : Shape := ⟨2, ![8192, 1]⟩
abbrev S8192x6 : Shape := ⟨2, ![8192, 6]⟩
abbrev S8192x4 : Shape := ⟨2, ![8192, 4]⟩

abbrev nBuf : Space → Nat
  | .hbm => 35
  | .vmem => 26
  | .smem => 0
  | _ => 0

abbrev bufTy : (tb : Table) → Fin (tcTables nBuf tb) → BufTy
  | .hbm, ⟨0, _⟩ => ⟨S4194304x8, .f32⟩
  | .hbm, ⟨1, _⟩ => ⟨S6x8, .f32⟩
  | .hbm, ⟨2, _⟩ => ⟨S6, .f32⟩
  | .hbm, ⟨3, _⟩ => ⟨S6x6, .f32⟩
  | .hbm, ⟨4, _⟩ => ⟨S6, .f32⟩
  | .hbm, ⟨5, _⟩ => ⟨S6x6, .f32⟩
  | .hbm, ⟨6, _⟩ => ⟨S6, .f32⟩
  | .hbm, ⟨7, _⟩ => ⟨S6x6, .f32⟩
  | .hbm, ⟨8, _⟩ => ⟨S6, .f32⟩
  | .hbm, ⟨9, _⟩ => ⟨S6x6, .f32⟩
  | .hbm, ⟨10, _⟩ => ⟨S6, .f32⟩
  | .hbm, ⟨11, _⟩ => ⟨S6x6, .f32⟩
  | .hbm, ⟨12, _⟩ => ⟨S6, .f32⟩
  | .hbm, ⟨13, _⟩ => ⟨S4x6, .f32⟩
  | .hbm, ⟨14, _⟩ => ⟨S4, .f32⟩
  | .hbm, ⟨15, _⟩ => ⟨S4x4, .f32⟩
  | .hbm, ⟨16, _⟩ => ⟨S4, .f32⟩
  | .hbm, ⟨17, _⟩ => ⟨S4x4, .f32⟩
  | .hbm, ⟨18, _⟩ => ⟨S4, .f32⟩
  | .hbm, ⟨19, _⟩ => ⟨S4x4, .f32⟩
  | .hbm, ⟨20, _⟩ => ⟨S4, .f32⟩
  | .hbm, ⟨21, _⟩ => ⟨S1x4, .f32⟩
  | .hbm, ⟨22, _⟩ => ⟨S1, .f32⟩
  | .hbm, ⟨23, _⟩ => ⟨S1x6, .f32⟩
  | .hbm, ⟨24, _⟩ => ⟨S1x6, .f32⟩
  | .hbm, ⟨25, _⟩ => ⟨S1x6, .f32⟩
  | .hbm, ⟨26, _⟩ => ⟨S1x6, .f32⟩
  | .hbm, ⟨27, _⟩ => ⟨S1x6, .f32⟩
  | .hbm, ⟨28, _⟩ => ⟨S1x6, .f32⟩
  | .hbm, ⟨29, _⟩ => ⟨S1x4, .f32⟩
  | .hbm, ⟨30, _⟩ => ⟨S1x4, .f32⟩
  | .hbm, ⟨31, _⟩ => ⟨S1x4, .f32⟩
  | .hbm, ⟨32, _⟩ => ⟨S1x4, .f32⟩
  | .hbm, ⟨33, _⟩ => ⟨S1x1, .f32⟩
  | .hbm, ⟨34, _⟩ => ⟨S4194304x1, .f32⟩
  | .local _ .vmem, ⟨0, _⟩ => ⟨S8192x8, .f32⟩
  | .local _ .vmem, ⟨1, _⟩ => ⟨S8192x8, .f32⟩
  | .local _ .vmem, ⟨2, _⟩ => ⟨S6x8, .f32⟩
  | .local _ .vmem, ⟨3, _⟩ => ⟨S1x6, .f32⟩
  | .local _ .vmem, ⟨4, _⟩ => ⟨S6x6, .f32⟩
  | .local _ .vmem, ⟨5, _⟩ => ⟨S1x6, .f32⟩
  | .local _ .vmem, ⟨6, _⟩ => ⟨S6x6, .f32⟩
  | .local _ .vmem, ⟨7, _⟩ => ⟨S1x6, .f32⟩
  | .local _ .vmem, ⟨8, _⟩ => ⟨S6x6, .f32⟩
  | .local _ .vmem, ⟨9, _⟩ => ⟨S1x6, .f32⟩
  | .local _ .vmem, ⟨10, _⟩ => ⟨S6x6, .f32⟩
  | .local _ .vmem, ⟨11, _⟩ => ⟨S1x6, .f32⟩
  | .local _ .vmem, ⟨12, _⟩ => ⟨S6x6, .f32⟩
  | .local _ .vmem, ⟨13, _⟩ => ⟨S1x6, .f32⟩
  | .local _ .vmem, ⟨14, _⟩ => ⟨S4x6, .f32⟩
  | .local _ .vmem, ⟨15, _⟩ => ⟨S1x4, .f32⟩
  | .local _ .vmem, ⟨16, _⟩ => ⟨S4x4, .f32⟩
  | .local _ .vmem, ⟨17, _⟩ => ⟨S1x4, .f32⟩
  | .local _ .vmem, ⟨18, _⟩ => ⟨S4x4, .f32⟩
  | .local _ .vmem, ⟨19, _⟩ => ⟨S1x4, .f32⟩
  | .local _ .vmem, ⟨20, _⟩ => ⟨S4x4, .f32⟩
  | .local _ .vmem, ⟨21, _⟩ => ⟨S1x4, .f32⟩
  | .local _ .vmem, ⟨22, _⟩ => ⟨S1x4, .f32⟩
  | .local _ .vmem, ⟨23, _⟩ => ⟨S1x1, .f32⟩
  | .local _ .vmem, ⟨24, _⟩ => ⟨S8192x1, .f32⟩
  | .local _ .vmem, ⟨25, _⟩ => ⟨S8192x1, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x6 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x6 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S8192x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  shapeCasts_S6_S1x6 : S6.ShapeCasts S1x6
  shapeCasts_S4_S1x4 : S4.ShapeCasts S1x4
  shapeCasts_S1_S1x1 : S1.ShapeCasts S1x1
  inb_S8192x8_S8192x8_0_0 : ∀ a, (![0, 0] : Fin 2 → Nat) a + S8192x8.size a ≤ S8192x8.size a
  h_S8192x8 : 0 < S8192x8.numel
  inb_S6x8_S6x8_0_0 : ∀ a, (![0, 0] : Fin 2 → Nat) a + S6x8.size a ≤ S6x8.size a
  h_S6x8 : 0 < S6x8.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S8192x6 : S1x6.Broadcasts S8192x6
  inb_S6x6_S6x6_0_0 : ∀ a, (![0, 0] : Fin 2 → Nat) a + S6x6.size a ≤ S6x6.size a
  h_S6x6 : 0 < S6x6.numel
  inb_S4x6_S4x6_0_0 : ∀ a, (![0, 0] : Fin 2 → Nat) a + S4x6.size a ≤ S4x6.size a
  h_S4x6 : 0 < S4x6.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8192x4 : S1x4.Broadcasts S8192x4
  inb_S4x4_S4x4_0_0 : ∀ a, (![0, 0] : Fin 2 → Nat) a + S4x4.size a ≤ S4x4.size a
  h_S4x4 : 0 < S4x4.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x8_S6x8_S8192x6_1_1_0_0_n_n_wf : DotDims.WF S8192x8 S6x8 S8192x6 [1] [1] [0] [0] [] []
  dot_S8192x6_S6x6_S8192x6_1_1_0_0_n_n_wf : DotDims.WF S8192x6 S6x6 S8192x6 [1] [1] [0] [0] [] []
  dot_S8192x6_S4x6_S8192x4_1_1_0_0_n_n_wf : DotDims.WF S8192x6 S4x6 S8192x4 [1] [1] [0] [0] [] []
  dot_S8192x4_S4x4_S8192x4_1_1_0_0_n_n_wf : DotDims.WF S8192x4 S4x4 S8192x4 [1] [1] [0] [0] [] []
  dot_S8192x4_S1x4_S8192x1_1_1_0_0_n_n_wf : DotDims.WF S8192x4 S1x4 S8192x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S4194304x8.size a
  hwx0_0 : ∀ i : grid0.Coords, EltTy.bits .f32 = 32 ∨ (Rect.block (s := S4194304x8) S8192x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x8.size a ≤ S6x8.size a
  hwx0_1 : ∀ i : grid0.Coords, EltTy.bits .f32 = 32 ∨ (Rect.block (s := S6x8) S6x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x6.size a ≤ S1x6.size a
  hwx0_2 : ∀ i : grid0.Coords, EltTy.bits .f32 = 32 ∨ (Rect.block (s := S1x6) S1x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x6.size a ≤ S6x6.size a
  hwx0_3 : ∀ i : grid0.Coords, EltTy.bits .f32 = 32 ∨ (Rect.block (s := S6x6) S6x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6.size a ≤ S1x6.size a
  hwx0_4 : ∀ i : grid0.Coords, EltTy.bits .f32 = 32 ∨ (Rect.block (s := S1x6) S1x6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x6.size a ≤ S6x6.size a
  hwx0_5 : ∀ i : grid0.Coords, EltTy.bits .f32 = 32 ∨ (Rect.block (s := S6x6) S6x6.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x6.size a ≤ S1x6.size a
  hwx0_6 : ∀ i : grid0.Coords, EltTy.bits .f32 = 32 ∨ (Rect.block (s := S1x6) S1x6.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x6.size a ≤ S6x6.size a
  hwx0_7 : ∀ i : grid0.Coords, EltTy.bits .f32 = 32 ∨ (Rect.block (s := S6x6) S6x6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x6.size a ≤ S1x6.size a
  hwx0_8 : ∀ i : grid0.Coords, EltTy.bits .f32 = 32 ∨ (Rect.block (s := S1x6) S1x6.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x6.size a ≤ S6x6.size a
  hwx0_9 : ∀ i : grid0.Coords, EltTy.bits .f32 = 32 ∨ (Rect.block (s := S6x6) S6x6.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x6.size a ≤ S1x6.size a
  hwx0_10 : ∀ i : grid0.Coords, EltTy.bits .f32 = 32 ∨ (Rect.block (s := S1x6) S1x6.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6x6.size a ≤ S6x6.size a
  hwx0_11 : ∀ i : grid0.Coords, EltTy.bits .f32 = 32 ∨ (Rect.block (s := S6x6) S6x6.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x6.size a ≤ S1x6.size a
  hwx0_12 : ∀ i : grid0.Coords, EltTy.bits .f32 = 32 ∨ (Rect.block (s := S1x6) S1x6.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x6.size a ≤ S4x6.size a
  hwx0_13 : ∀ i : grid0.Coords, EltTy.bits .f32 = 32 ∨ (Rect.block (s := S4x6) S4x6.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x4.size a ≤ S1x4.size a
  hwx0_14 : ∀ i : grid0.Coords, EltTy.bits .f32 = 32 ∨ (Rect.block (s := S1x4) S1x4.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S4x4.size a ≤ S4x4.size a
  hwx0_15 : ∀ i : grid0.Coords, EltTy.bits .f32 = 32 ∨ (Rect.block (s := S4x4) S4x4.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x4.size a ≤ S1x4.size a
  hwx0_16 : ∀ i : grid0.Coords, EltTy.bits .f32 = 32 ∨ (Rect.block (s := S1x4) S1x4.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S4x4.size a ≤ S4x4.size a
  hwx0_17 : ∀ i : grid0.Coords, EltTy.bits .f32 = 32 ∨ (Rect.block (s := S4x4) S4x4.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x4.size a ≤ S1x4.size a
  hwx0_18 : ∀ i : grid0.Coords, EltTy.bits .f32 = 32 ∨ (Rect.block (s := S1x4) S1x4.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S4x4.size a ≤ S4x4.size a
  hwx0_19 : ∀ i : grid0.Coords, EltTy.bits .f32 = 32 ∨ (Rect.block (s := S4x4) S4x4.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x4.size a ≤ S1x4.size a
  hwx0_20 : ∀ i : grid0.Coords, EltTy.bits .f32 = 32 ∨ (Rect.block (s := S1x4) S1x4.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x4.size a ≤ S1x4.size a
  hwx0_21 : ∀ i : grid0.Coords, EltTy.bits .f32 = 32 ∨ (Rect.block (s := S1x4) S1x4.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S8192x1.size a ≤ S4194304x1.size a
  hwx0_23 : ∀ i : grid0.Coords, EltTy.bits .f32 = 32 ∨ (Rect.block (s := S4194304x1) S8192x1.size (cc0_transform_23 i) (hinb0_23 i)).WholeWords (EltTy.packing .f32)

variable [Facts₀]

def dot_S8192x8_S6x8_S8192x6_1_1_0_0_n_n : DotDims S8192x8 S6x8 S8192x6 where
  lhsContracting := [1]
  rhsContracting := [1]
  lhsNonContracting := [0]
  rhsNonContracting := [0]
  lhsBatch := []
  rhsBatch := []
  wf := dot_S8192x8_S6x8_S8192x6_1_1_0_0_n_n_wf
def dot_S8192x6_S6x6_S8192x6_1_1_0_0_n_n : DotDims S8192x6 S6x6 S8192x6 where
  lhsContracting := [1]
  rhsContracting := [1]
  lhsNonContracting := [0]
  rhsNonContracting := [0]
  lhsBatch := []
  rhsBatch := []
  wf := dot_S8192x6_S6x6_S8192x6_1_1_0_0_n_n_wf
def dot_S8192x6_S4x6_S8192x4_1_1_0_0_n_n : DotDims S8192x6 S4x6 S8192x4 where
  lhsContracting := [1]
  rhsContracting := [1]
  lhsNonContracting := [0]
  rhsNonContracting := [0]
  lhsBatch := []
  rhsBatch := []
  wf := dot_S8192x6_S4x6_S8192x4_1_1_0_0_n_n_wf
def dot_S8192x4_S4x4_S8192x4_1_1_0_0_n_n : DotDims S8192x4 S4x4 S8192x4 where
  lhsContracting := [1]
  rhsContracting := [1]
  lhsNonContracting := [0]
  rhsNonContracting := [0]
  lhsBatch := []
  rhsBatch := []
  wf := dot_S8192x4_S4x4_S8192x4_1_1_0_0_n_n_wf
def dot_S8192x4_S1x4_S8192x1_1_1_0_0_n_n : DotDims S8192x4 S1x4 S8192x1 where
  lhsContracting := [1]
  rhsContracting := [1]
  lhsNonContracting := [0]
  rhsNonContracting := [0]
  lhsBatch := []
  rhsBatch := []
  wf := dot_S8192x4_S1x4_S8192x1_1_1_0_0_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x6.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S6x6.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x6.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S4x6.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x4.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S4x4.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x4.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S4x4.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v8) S1x4.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S4x4.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v9) S1x4.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S1x4.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v10) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v11) S8192x1.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S6x8 : Shape := ⟨2, ![6, 8]⟩
abbrev S6 : Shape := ⟨1, ![6]⟩
abbrev S6x6 : Shape := ⟨2, ![6, 6]⟩
abbrev S4x6 : Shape := ⟨2, ![4, 6]⟩
abbrev S4 : Shape := ⟨1, ![4]⟩
abbrev S4x4 : Shape := ⟨2, ![4, 4]⟩
abbrev S1x4 : Shape := ⟨2, ![1, 4]⟩
abbrev S1 : Shape := ⟨1, ![1]⟩
abbrev S8x6 : Shape := ⟨2, ![8, 6]⟩
abbrev S4194304x6 : Shape := ⟨2, ![4194304, 6]⟩
abbrev S1x6 : Shape := ⟨2, ![1, 6]⟩
abbrev S_ : Shape := ⟨0, ![]⟩
abbrev S6x4 : Shape := ⟨2, ![6, 4]⟩
abbrev S4194304x4 : Shape := ⟨2, ![4194304, 4]⟩
abbrev S4x1 : Shape := ⟨2, ![4, 1]⟩
abbrev S4194304x1 : Shape := ⟨2, ![4194304, 1]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S4194304x8, .f32⟩
  | 1 => ⟨S6x8, .f32⟩
  | 2 => ⟨S6, .f32⟩
  | 3 => ⟨S6x6, .f32⟩
  | 4 => ⟨S6, .f32⟩
  | 5 => ⟨S6x6, .f32⟩
  | 6 => ⟨S6, .f32⟩
  | 7 => ⟨S6x6, .f32⟩
  | 8 => ⟨S6, .f32⟩
  | 9 => ⟨S6x6, .f32⟩
  | 10 => ⟨S6, .f32⟩
  | 11 => ⟨S6x6, .f32⟩
  | 12 => ⟨S6, .f32⟩
  | 13 => ⟨S4x6, .f32⟩
  | 14 => ⟨S4, .f32⟩
  | 15 => ⟨S4x4, .f32⟩
  | 16 => ⟨S4, .f32⟩
  | 17 => ⟨S4x4, .f32⟩
  | 18 => ⟨S4, .f32⟩
  | 19 => ⟨S4x4, .f32⟩
  | 20 => ⟨S4, .f32⟩
  | 21 => ⟨S1x4, .f32⟩
  | 22 => ⟨S1, .f32⟩
  | 23 => ⟨S8x6, .f32⟩
  | 24 => ⟨S4194304x6, .f32⟩
  | 25 => ⟨S1x6, .f32⟩
  | 26 => ⟨S4194304x6, .f32⟩
  | 27 => ⟨S4194304x6, .f32⟩
  | 28 => ⟨S4194304x6, .f32⟩
  | 29 => ⟨S4194304x6, .f32⟩
  | 30 => ⟨S_, .f32⟩
  | 31 => ⟨S4194304x6, .f32⟩
  | 32 => ⟨S4194304x6, .f32⟩
  | 33 => ⟨S_, .f32⟩
  | 34 => ⟨S4194304x6, .f32⟩
  | 35 => ⟨S4194304x6, .f32⟩
  | 36 => ⟨S6x6, .f32⟩
  | 37 => ⟨S4194304x6, .f32⟩
  | 38 => ⟨S1x6, .f32⟩
  | 39 => ⟨S4194304x6, .f32⟩
  | 40 => ⟨S4194304x6, .f32⟩
  | 41 => ⟨S4194304x6, .f32⟩
  | 42 => ⟨S4194304x6, .f32⟩
  | 43 => ⟨S_, .f32⟩
  | 44 => ⟨S4194304x6, .f32⟩
  | 45 => ⟨S4194304x6, .f32⟩
  | 46 => ⟨S_, .f32⟩
  | 47 => ⟨S4194304x6, .f32⟩
  | 48 => ⟨S4194304x6, .f32⟩
  | 49 => ⟨S6x6, .f32⟩
  | 50 => ⟨S4194304x6, .f32⟩
  | 51 => ⟨S1x6, .f32⟩
  | 52 => ⟨S4194304x6, .f32⟩
  | 53 => ⟨S4194304x6, .f32⟩
  | 54 => ⟨S4194304x6, .f32⟩
  | 55 => ⟨S4194304x6, .f32⟩
  | 56 => ⟨S_, .f32⟩
  | 57 => ⟨S4194304x6, .f32⟩
  | 58 => ⟨S4194304x6, .f32⟩
  | 59 => ⟨S_, .f32⟩
  | 60 => ⟨S4194304x6, .f32⟩
  | 61 => ⟨S4194304x6, .f32⟩
  | 62 => ⟨S6x6, .f32⟩
  | 63 => ⟨S4194304x6, .f32⟩
  | 64 => ⟨S1x6, .f32⟩
  | 65 => ⟨S4194304x6, .f32⟩
  | 66 => ⟨S4194304x6, .f32⟩
  | 67 => ⟨S4194304x6, .f32⟩
  | 68 => ⟨S4194304x6, .f32⟩
  | 69 => ⟨S_, .f32⟩
  | 70 => ⟨S4194304x6, .f32⟩
  | 71 => ⟨S4194304x6, .f32⟩
  | 72 => ⟨S_, .f32⟩
  | 73 => ⟨S4194304x6, .f32⟩
  | 74 => ⟨S4194304x6, .f32⟩
  | 75 => ⟨S6x6, .f32⟩
  | 76 => ⟨S4194304x6, .f32⟩
  | 77 => ⟨S1x6, .f32⟩
  | 78 => ⟨S4194304x6, .f32⟩
  | 79 => ⟨S4194304x6, .f32⟩
  | 80 => ⟨S4194304x6, .f32⟩
  | 81 => ⟨S4194304x6, .f32⟩
  | 82 => ⟨S_, .f32⟩
  | 83 => ⟨S4194304x6, .f32⟩
  | 84 => ⟨S4194304x6, .f32⟩
  | 85 => ⟨S_, .f32⟩
  | 86 => ⟨S4194304x6, .f32⟩
  | 87 => ⟨S4194304x6, .f32⟩
  | 88 => ⟨S6x6, .f32⟩
  | 89 => ⟨S4194304x6, .f32⟩
  | 90 => ⟨S1x6, .f32⟩
  | 91 => ⟨S4194304x6, .f32⟩
  | 92 => ⟨S4194304x6, .f32⟩
  | 93 => ⟨S4194304x6, .f32⟩
  | 94 => ⟨S4194304x6, .f32⟩
  | 95 => ⟨S_, .f32⟩
  | 96 => ⟨S4194304x6, .f32⟩
  | 97 => ⟨S4194304x6, .f32⟩
  | 98 => ⟨S_, .f32⟩
  | 99 => ⟨S4194304x6, .f32⟩
  | 100 => ⟨S4194304x6, .f32⟩
  | 101 => ⟨S6x4, .f32⟩
  | 102 => ⟨S4194304x4, .f32⟩
  | 103 => ⟨S1x4, .f32⟩
  | 104 => ⟨S4194304x4, .f32⟩
  | 105 => ⟨S4194304x4, .f32⟩
  | 106 => ⟨S4194304x4, .f32⟩
  | 107 => ⟨S4194304x4, .f32⟩
  | 108 => ⟨S_, .f32⟩
  | 109 => ⟨S4194304x4, .f32⟩
  | 110 => ⟨S4194304x4, .f32⟩
  | 111 => ⟨S_, .f32⟩
  | 112 => ⟨S4194304x4, .f32⟩
  | 113 => ⟨S4194304x4, .f32⟩
  | 114 => ⟨S4x4, .f32⟩
  | 115 => ⟨S4194304x4, .f32⟩
  | 116 => ⟨S1x4, .f32⟩
  | 117 => ⟨S4194304x4, .f32⟩
  | 118 => ⟨S4194304x4, .f32⟩
  | 119 => ⟨S4194304x4, .f32⟩
  | 120 => ⟨S4194304x4, .f32⟩
  | 121 => ⟨S_, .f32⟩
  | 122 => ⟨S4194304x4, .f32⟩
  | 123 => ⟨S4194304x4, .f32⟩
  | 124 => ⟨S_, .f32⟩
  | 125 => ⟨S4194304x4, .f32⟩
  | 126 => ⟨S4194304x4, .f32⟩
  | 127 => ⟨S4x4, .f32⟩
  | _ => ⟨S4194304x8, .f32⟩

abbrev hbmTy0_1 (i : Nat) : BufTy := match i % 128 with
  | 0 => ⟨S4194304x4, .f32⟩
  | 1 => ⟨S1x4, .f32⟩
  | 2 => ⟨S4194304x4, .f32⟩
  | 3 => ⟨S4194304x4, .f32⟩
  | 4 => ⟨S4194304x4, .f32⟩
  | 5 => ⟨S4194304x4, .f32⟩
  | 6 => ⟨S_, .f32⟩
  | 7 => ⟨S4194304x4, .f32⟩
  | 8 => ⟨S4194304x4, .f32⟩
  | 9 => ⟨S_, .f32⟩
  | 10 => ⟨S4194304x4, .f32⟩
  | 11 => ⟨S4194304x4, .f32⟩
  | 12 => ⟨S4x4, .f32⟩
  | 13 => ⟨S4194304x4, .f32⟩
  | 14 => ⟨S1x4, .f32⟩
  | 15 => ⟨S4194304x4, .f32⟩
  | 16 => ⟨S4194304x4, .f32⟩
  | 17 => ⟨S4194304x4, .f32⟩
  | 18 => ⟨S4194304x4, .f32⟩
  | 19 => ⟨S_, .f32⟩
  | 20 => ⟨S4194304x4, .f32⟩
  | 21 => ⟨S4194304x4, .f32⟩
  | 22 => ⟨S_, .f32⟩
  | 23 => ⟨S4194304x4, .f32⟩
  | 24 => ⟨S4194304x4, .f32⟩
  | 25 => ⟨S4x1, .f32⟩
  | 26 => ⟨S4194304x1, .f32⟩
  | 27 => ⟨S1x1, .f32⟩
  | 28 => ⟨S4194304x1, .f32⟩
  | 29 => ⟨S4194304x1, .f32⟩
  | 30 => ⟨S4194304x1, .f32⟩
  | 31 => ⟨S4194304x1, .f32⟩
  | 32 => ⟨S_, .f32⟩
  | 33 => ⟨S4194304x1, .f32⟩
  | 34 => ⟨S4194304x1, .f32⟩
  | 35 => ⟨S_, .f32⟩
  | 36 => ⟨S4194304x1, .f32⟩
  | 37 => ⟨S4194304x1, .f32⟩
  | _ => ⟨S4194304x8, .f32⟩

abbrev hbmTy (i : Nat) : BufTy := match i / 128 with
  | 0 => hbmTy0_0 i
  | 1 => hbmTy0_1 i
  | _ => ⟨S4194304x8, .f32⟩

abbrev bufTy : (tb : Table) → Fin (tcTables nBuf tb) → BufTy
  | .hbm, ⟨i, _⟩ => hbmTy i
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_5 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_cst_10 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_cst_14 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_15 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_17 : Ref sig .tc := ⟨.hbm, 147, rfl⟩
abbrev main_v106 : Ref sig .tc := ⟨.hbm, 148, rfl⟩
abbrev main_v107 : Ref sig .tc := ⟨.hbm, 149, rfl⟩
abbrev main_cst_18 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_19 : Ref sig .tc := ⟨.hbm, 160, rfl⟩
abbrev main_v117 : Ref sig .tc := ⟨.hbm, 161, rfl⟩
abbrev main_v118 : Ref sig .tc := ⟨.hbm, 162, rfl⟩
abbrev main_cst_20 : Ref sig .tc := ⟨.hbm, 163, rfl⟩
abbrev main_v119 : Ref sig .tc := ⟨.hbm, 164, rfl⟩
abbrev main_v120 : Ref sig .tc := ⟨.hbm, 165, rfl⟩

abbrev nD : Nat := 1
abbrev τ : Topo := Topo.v7x

variable {F : FTy → Type} [FloatOps F]

class Facts₀ : Prop where
  transposes_S6x8_S8x6_1_0 : S6x8.Transposes [1, 0] S8x6
  bcast_S6_S1x6_1 : S6.BroadcastsInDim S1x6 (![1] : Fin 1 → Fin S1x6.rank)
  bcast_S1x6_S4194304x6_0_1 : S1x6.BroadcastsInDim S4194304x6 (![0, 1] : Fin 2 → Fin S4194304x6.rank)
  bcast_S_S4194304x6 : S_.BroadcastsInDim S4194304x6 (![] : Fin 0 → Fin S4194304x6.rank)
  transposes_S6x6_S6x6_1_0 : S6x6.Transposes [1, 0] S6x6
  transposes_S4x6_S6x4_1_0 : S4x6.Transposes [1, 0] S6x4
  bcast_S4_S1x4_1 : S4.BroadcastsInDim S1x4 (![1] : Fin 1 → Fin S1x4.rank)
  bcast_S1x4_S4194304x4_0_1 : S1x4.BroadcastsInDim S4194304x4 (![0, 1] : Fin 2 → Fin S4194304x4.rank)
  bcast_S_S4194304x4 : S_.BroadcastsInDim S4194304x4 (![] : Fin 0 → Fin S4194304x4.rank)
  transposes_S4x4_S4x4_1_0 : S4x4.Transposes [1, 0] S4x4
  transposes_S1x4_S4x1_1_0 : S1x4.Transposes [1, 0] S4x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S4194304x1 : S_.BroadcastsInDim S4194304x1 (![] : Fin 0 → Fin S4194304x1.rank)
  dot_S4194304x8_S8x6_S4194304x6_1_0_0_1_n_n_wf : DotDims.WF S4194304x8 S8x6 S4194304x6 [1] [0] [0] [1] [] []
  dot_S4194304x6_S6x6_S4194304x6_1_0_0_1_n_n_wf : DotDims.WF S4194304x6 S6x6 S4194304x6 [1] [0] [0] [1] [] []
  dot_S4194304x6_S6x4_S4194304x4_1_0_0_1_n_n_wf : DotDims.WF S4194304x6 S6x4 S4194304x4 [1] [0] [0] [1] [] []
  dot_S4194304x4_S4x4_S4194304x4_1_0_0_1_n_n_wf : DotDims.WF S4194304x4 S4x4 S4194304x4 [1] [0] [0] [1] [] []
  dot_S4194304x4_S4x1_S4194304x1_1_0_0_1_n_n_wf : DotDims.WF S4194304x4 S4x1 S4194304x1 [1] [0] [0] [1] [] []

variable [Facts₀]

def dot_S4194304x8_S8x6_S4194304x6_1_0_0_1_n_n : DotDims S4194304x8 S8x6 S4194304x6 where
  lhsContracting := [1]
  rhsContracting := [0]
  lhsNonContracting := [0]
  rhsNonContracting := [1]
  lhsBatch := []
  rhsBatch := []
  wf := dot_S4194304x8_S8x6_S4194304x6_1_0_0_1_n_n_wf
def dot_S4194304x6_S6x6_S4194304x6_1_0_0_1_n_n : DotDims S4194304x6 S6x6 S4194304x6 where
  lhsContracting := [1]
  rhsContracting := [0]
  lhsNonContracting := [0]
  rhsNonContracting := [1]
  lhsBatch := []
  rhsBatch := []
  wf := dot_S4194304x6_S6x6_S4194304x6_1_0_0_1_n_n_wf
def dot_S4194304x6_S6x4_S4194304x4_1_0_0_1_n_n : DotDims S4194304x6 S6x4 S4194304x4 where
  lhsContracting := [1]
  rhsContracting := [0]
  lhsNonContracting := [0]
  rhsNonContracting := [1]
  lhsBatch := []
  rhsBatch := []
  wf := dot_S4194304x6_S6x4_S4194304x4_1_0_0_1_n_n_wf
def dot_S4194304x4_S4x4_S4194304x4_1_0_0_1_n_n : DotDims S4194304x4 S4x4 S4194304x4 where
  lhsContracting := [1]
  rhsContracting := [0]
  lhsNonContracting := [0]
  rhsNonContracting := [1]
  lhsBatch := []
  rhsBatch := []
  wf := dot_S4194304x4_S4x4_S4194304x4_1_0_0_1_n_n_wf
def dot_S4194304x4_S4x1_S4194304x1_1_0_0_1_n_n : DotDims S4194304x4 S4x1 S4194304x1 where
  lhsContracting := [1]
  rhsContracting := [0]
  lhsNonContracting := [0]
  rhsNonContracting := [1]
  lhsBatch := []
  rhsBatch := []
  wf := dot_S4194304x4_S4x1_S4194304x1_1_0_0_1_n_n_wf

class Facts : Prop extends Facts₀ where

variable [Facts]
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.LibDenseSigmoid.lean ====
/-
  A dense layer followed by the logistic function, read at one entry on the extended reals, for arbitrary extents.

  For a batch `h` of rows of length `k`, a weight matrix `W` stored as (outputs × inputs) = `n × k` and a bias `b` of
  length `n`, the layer's entry at row `r` and output `j` is
      σ (Σ_c h(r,c) · W(j,c) + b(j)),    σ(z) = 1 / (1 + e^(−z)),
  with the extended reals' conventions at the infinities (σ(−∞) = 0, σ(+∞) = 1). Two spellings are read here:
  * a vector program's: the matrix product of `h` with `W` contracted over both operands' second axis into a zero
    accumulator, plus the bias kept as a `1 × n` row and repeated down the rows, then the logistic operation;
  * a host program's: the product of `h` with the transpose of `W`, plus the bias broadcast first to `1 × n` and then
    down the rows, then 1 / (1 + exp (−z)) written out with negate, exponential, add and divide, the number one
    being the 32-bit pattern 0x3F800000.
  Both are the same function `dense W b` of the row of `h`.
-/
import Idealize.ShloMosaic.PureOps
import Idealize.ShloMosaic.Lib.ValueIdx
import Idealize.ShloMosaic.Lib.ValueLayout
import Idealize.ShloMosaic.Lib.Pipeline.Value
import Idealize.ShloMosaic.PureOps.Ideal.Laws
import proofs.«106735_j21981642621237_2_alg».proof.Proof.LibMatrixAtIndex

noncomputable section

open scoped BigOperators

namespace DenseSigmoid

open Idealize.ShloMosaic Idealize.ShloMosaic.ValueIdx

/-- One dense layer with a logistic activation, on one row: output `j` is `σ (Σ_c h c · W j c + b j)`. -/
def dense {k n : Nat} (W : Fin n → Fin k → EReal) (b : Fin n → EReal) (h : Fin k → EReal) : Fin n → EReal :=
  fun j => Ideal.logistic ((∑ c : Fin k, h c * W j c) + b j)

/-- The layer's output depends on its input row entry by entry. -/
theorem dense_congr {k n : Nat} (W : Fin n → Fin k → EReal) (b : Fin n → EReal) {h h' : Fin k → EReal}
    (e : ∀ c, h c = h' c) : dense W b h = dense W b h' :=
  congrArg (dense W b) (funext e)

/-- The logistic function written out as the host writes it, `one / (one + exp (−z))`, is the logistic function
    whenever `one` is the number one. -/
theorem hostLogistic_eq (one z : EReal) (h1 : one = 1) :
    FloatOps.hostDivf (F := Ideal) (φ := .f32) one
      (FloatOps.addf one (FloatOps.hostUnary .exp (FloatOps.hostNegf z))) = Ideal.logistic z := by
  subst h1
  rfl

section Layers
variable {a k n : Nat}

/-- The host's product of `A : a × k` with `B : k × n` at `(i, c)`: `Σ_f A(i,f) · B(f,c)` — the sum a matrix product into
    a zero accumulator has. -/
theorem hostDot_rowcol_apply (d : DotDims ⟨2, ![a, k]⟩ ⟨2, ![k, n]⟩ ⟨2, ![a, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![a, k]⟩ .f32) (B : FVec Ideal ⟨2, ![k, n]⟩ .f32) (i : Fin a) (c : Fin n) :
    Host.dotGeneral d prec A B (ix2 i c) = ∑ f : Fin k, A (ix2 i f) * B (ix2 f c) :=
  ((Ideal.dotGeneral_apply d prec _ A B (ix2 i c)).trans
      (Ideal.matmul_constant_zero_apply d prec A B (ix2 i c)).symm).trans
    (Cert.KernelIdeal.Pay.matmul_rowcol_apply d hlb hrb hln hrn hlc hrc hr hs prec A B i c)

/-- THE VECTOR PROGRAM'S LAYER at `(p, j)`: the product of `h` with `W` over both second axes into zero, plus the bias
    row repeated down the rows, through the logistic operation, is `dense` of row `p` of `h`. -/
theorem vectorLayer_apply (d : DotDims ⟨2, ![a, k]⟩ ⟨2, ![n, k]⟩ ⟨2, ![a, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (hC : (⟨2, ![1, n]⟩ : Shape).ShapeCasts ⟨2, ![1, n]⟩) (hB : (⟨2, ![1, n]⟩ : Shape).Broadcasts ⟨2, ![a, n]⟩)
    (h : FVec Ideal ⟨2, ![a, k]⟩ .f32) (W : FVec Ideal ⟨2, ![n, k]⟩ .f32) (b : FVec Ideal ⟨2, ![1, n]⟩ .f32)
    (p : Fin a) (j : Fin n) :
    logistic (addf (matmul d prec h W (constant (F := Ideal) ⟨2, ![a, n]⟩ .f32 0x00000000#32))
        (broadcastTo ⟨2, ![a, n]⟩ (shapeCast ⟨2, ![1, n]⟩ b hC) hB)) (ix2 p j)
      = dense (fun j c => W (ix2 j c)) (fun j => b (ix2 (0 : Fin 1) j)) (fun c => h (ix2 p c)) j := by
  have e1 := Cert.KernelIdeal.Pay.matmul_rowrow_apply d hlb hrb hln hrn hlc hrc hr hs prec h W p j
  have e2 : broadcastTo ⟨2, ![a, n]⟩ (shapeCast ⟨2, ![1, n]⟩ b hC) hB (ix2 p j) = b (ix2 (0 : Fin 1) j) := by
    rw [broadcastTo_1b_ab_apply, shapeCast_self]
  show Ideal.logistic (matmul d prec h W (constant (F := Ideal) ⟨2, ![a, n]⟩ .f32 0x00000000#32) (ix2 p j)
      + broadcastTo ⟨2, ![a, n]⟩ (shapeCast ⟨2, ![1, n]⟩ b hC) hB (ix2 p j)) = _
  rw [e1, e2]
  rfl

/-- THE HOST PROGRAM'S LAYER at `(r, j)`: the product of `h` with the transpose of `W`, plus the bias broadcast to a
    row and down the rows, through `one / (one + exp (−z))` with `one` the pattern 0x3F800000, is `dense` of row `r`
    of `h`. -/
theorem hostLayer_apply (d : DotDims ⟨2, ![a, k]⟩ ⟨2, ![k, n]⟩ ⟨2, ![a, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (hT : (⟨2, ![n, k]⟩ : Shape).Transposes [1, 0] ⟨2, ![k, n]⟩)
    (hb1 : (⟨1, ![n]⟩ : Shape).BroadcastsInDim ⟨2, ![1, n]⟩ ![1])
    (hb2 : (⟨2, ![1, n]⟩ : Shape).BroadcastsInDim ⟨2, ![a, n]⟩ ![0, 1])
    (hb0 : (⟨0, ![]⟩ : Shape).BroadcastsInDim ⟨2, ![a, n]⟩ ![])
    (h : FVec Ideal ⟨2, ![a, k]⟩ .f32) (W : FVec Ideal ⟨2, ![n, k]⟩ .f32) (b : FVec Ideal ⟨1, ![n]⟩ .f32)
    (r : Fin a) (j : Fin n) :
    Host.divf (broadcastInDim ⟨2, ![a, n]⟩ ![] hb0 (constant (F := Ideal) ⟨0, ![]⟩ .f32 0x3F800000#32))
        (addf (broadcastInDim ⟨2, ![a, n]⟩ ![] hb0 (constant (F := Ideal) ⟨0, ![]⟩ .f32 0x3F800000#32))
          (Host.exp (Host.negf (addf (Host.dotGeneral d prec h (transpose ⟨2, ![k, n]⟩ [1, 0] W hT))
            (broadcastInDim ⟨2, ![a, n]⟩ ![0, 1] hb2 (broadcastInDim ⟨2, ![1, n]⟩ ![1] hb1 b)))))) (ix2 r j)
      = dense (fun j c => W (ix2 j c)) (fun j => b (ix1 j)) (fun c => h (ix2 r c)) j := by
  have e1 : broadcastInDim ⟨2, ![a, n]⟩ ![] hb0 (constant (F := Ideal) ⟨0, ![]⟩ .f32 0x3F800000#32) (ix2 r j) = 1 :=
    (broadcastInDim_apply ![] hb0 _ (ix2 r j) ix0 (fun ax => ax.elim0)).trans Cert.KernelIdeal.Pay.ofBits_one_f32
  have e2 : Host.dotGeneral d prec h (transpose ⟨2, ![k, n]⟩ [1, 0] W hT) (ix2 r j)
      = ∑ c : Fin k, h (ix2 r c) * W (ix2 j c) :=
    (hostDot_rowcol_apply d hlb hrb hln hrn hlc hrc hr hs prec h _ r j).trans
      (Finset.sum_congr rfl fun c _ => congrArg (h (ix2 r c) * ·) (transpose_ix2_apply W hT c j))
  have e3 : broadcastInDim ⟨2, ![a, n]⟩ ![0, 1] hb2 (broadcastInDim ⟨2, ![1, n]⟩ ![1] hb1 b) (ix2 r j) = b (ix1 j) :=
    (broadcastInDim_apply ![0, 1] hb2 _ (ix2 r j) (ix2 (0 : Fin 1) j) (fun ax => match ax with
      | ⟨0, _⟩ => by show (0 : Nat) = if (1 : Nat) = 1 then 0 else r.val; rw [if_pos rfl]
      | ⟨1, _⟩ => by
        show j.val = if n = 1 then 0 else j.val
        split
        · have := j.isLt; omega
        · rfl)).trans
    (broadcastInDim_apply ![1] hb1 b (ix2 (0 : Fin 1) j) (ix1 j) (fun ax => match ax with
      | ⟨0, _⟩ => by
        show j.val = if n = 1 then 0 else j.val
        split
        · have := j.isLt; omega
        · rfl))
  refine (hostLogistic_eq _ _ e1).trans ?_
  exact congrArg Ideal.logistic (congrArg₂ (· + ·) e2 e3)

end Layers

end DenseSigmoid

end
-- ==== Proof.Spec.lean ====
/-
  The function both programs compute: an eleven-layer perceptron with logistic activations, applied row by row.

  Layer ℓ has a weight matrix `Wℓ` stored as (outputs × inputs) and a bias `bℓ`; on a row `h` it returns
  `j ↦ σ (Σ_c h c · Wℓ j c + bℓ j)` (`DenseSigmoid.dense`). The widths are 8 → 6 → 6 → 6 → 6 → 6 → 6 → 4 → 4 → 4 → 4 → 1.
  `mlpRow` composes the eleven layers on one row of eight numbers; `G` is the whole result array, 4194304 × 1, as one
  function of the twenty-three argument arrays: entry `(r, q)` is `mlpRow` of row `r` of `x`, at its one output `q`.
  Every entry of the result depends on one row of `x` only, which is why cutting the rows into blocks changes nothing.
-/
import Idealize.ShloMosaic.PureOps.Ideal
import Idealize.ShloMosaic.Lib.ValueIdx
import proofs.«106735_j21981642621237_2_alg».proof.Proof.LibDenseSigmoid

noncomputable section

namespace MlpSpec

open Idealize.ShloMosaic Idealize.ShloMosaic.ValueIdx DenseSigmoid

/-- A rank-2 array read as a matrix of its coordinates. -/
abbrev mat {n k : Nat} (A : (⟨2, ![n, k]⟩ : Shape).Idx → EReal) : Fin n → Fin k → EReal := fun j c => A (ix2 j c)
/-- A rank-1 array read as a vector of its coordinate. -/
abbrev vec {n : Nat} (v : (⟨1, ![n]⟩ : Shape).Idx → EReal) : Fin n → EReal := fun j => v (ix1 j)
/-- A one-row matrix read as the vector of its row. -/
abbrev row {n : Nat} (v : (⟨2, ![1, n]⟩ : Shape).Idx → EReal) : Fin n → EReal := fun j => v (ix2 (0 : Fin 1) j)

/-- The eleven layers on one row. -/
def mlpRow
    (W1 : Fin 6 → Fin 8 → EReal) (b1 : Fin 6 → EReal) (W2 : Fin 6 → Fin 6 → EReal) (b2 : Fin 6 → EReal)
    (W3 : Fin 6 → Fin 6 → EReal) (b3 : Fin 6 → EReal) (W4 : Fin 6 → Fin 6 → EReal) (b4 : Fin 6 → EReal)
    (W5 : Fin 6 → Fin 6 → EReal) (b5 : Fin 6 → EReal) (W6 : Fin 6 → Fin 6 → EReal) (b6 : Fin 6 → EReal)
    (W7 : Fin 4 → Fin 6 → EReal) (b7 : Fin 4 → EReal) (W8 : Fin 4 → Fin 4 → EReal) (b8 : Fin 4 → EReal)
    (W9 : Fin 4 → Fin 4 → EReal) (b9 : Fin 4 → EReal) (W10 : Fin 4 → Fin 4 → EReal) (b10 : Fin 4 → EReal)
    (W11 : Fin 1 → Fin 4 → EReal) (b11 : Fin 1 → EReal) (x : Fin 8 → EReal) : Fin 1 → EReal :=
  dense W11 b11 (dense W10 b10 (dense W9 b9 (dense W8 b8 (dense W7 b7 (dense W6 b6 (dense W5 b5 (dense W4 b4
    (dense W3 b3 (dense W2 b2 (dense W1 b1 x))))))))))

/-- The result array as one function of the argument arrays: entry `(r, q)` is the network on row `r` of `x`. -/
def G (x : (⟨2, ![4194304, 8]⟩ : Shape).Idx → EReal)
    (W1 : (⟨2, ![6, 8]⟩ : Shape).Idx → EReal) (b1 : (⟨1, ![6]⟩ : Shape).Idx → EReal)
    (W2 : (⟨2, ![6, 6]⟩ : Shape).Idx → EReal) (b2 : (⟨1, ![6]⟩ : Shape).Idx → EReal)
    (W3 : (⟨2, ![6, 6]⟩ : Shape).Idx → EReal) (b3 : (⟨1, ![6]⟩ : Shape).Idx → EReal)
    (W4 : (⟨2, ![6, 6]⟩ : Shape).Idx → EReal) (b4 : (⟨1, ![6]⟩ : Shape).Idx → EReal)
    (W5 : (⟨2, ![6, 6]⟩ : Shape).Idx → EReal) (b5 : (⟨1, ![6]⟩ : Shape).Idx → EReal)
    (W6 : (⟨2, ![6, 6]⟩ : Shape).Idx → EReal) (b6 : (⟨1, ![6]⟩ : Shape).Idx → EReal)
    (W7 : (⟨2, ![4, 6]⟩ : Shape).Idx → EReal) (b7 : (⟨1, ![4]⟩ : Shape).Idx → EReal)
    (W8 : (⟨2, ![4, 4]⟩ : Shape).Idx → EReal) (b8 : (⟨1, ![4]⟩ : Shape).Idx → EReal)
    (W9 : (⟨2, ![4, 4]⟩ : Shape).Idx → EReal) (b9 : (⟨1, ![4]⟩ : Shape).Idx → EReal)
    (W10 : (⟨2, ![4, 4]⟩ : Shape).Idx → EReal) (b10 : (⟨1, ![4]⟩ : Shape).Idx → EReal)
    (W11 : (⟨2, ![1, 4]⟩ : Shape).Idx → EReal) (b11 : (⟨1, ![1]⟩ : Shape).Idx → EReal) :
    (⟨2, ![4194304, 1]⟩ : Shape).Idx → EReal :=
  fun i => mlpRow (mat W1) (vec b1) (mat W2) (vec b2) (mat W3) (vec b3) (mat W4) (vec b4) (mat W5) (vec b5)
    (mat W6) (vec b6) (mat W7) (vec b7) (mat W8) (vec b8) (mat W9) (vec b9) (mat W10) (vec b10) (mat W11) (vec b11)
    (fun c => x (ix2 (⟨(i 0).val, (i 0).isLt⟩ : Fin 4194304) c)) (⟨(i 1).val, (i 1).isLt⟩ : Fin 1)

/-- `G` at the entry with coordinates `(r, q)`. -/
theorem G_apply (x : (⟨2, ![4194304, 8]⟩ : Shape).Idx → EReal)
    (W1 : (⟨2, ![6, 8]⟩ : Shape).Idx → EReal) (b1 : (⟨1, ![6]⟩ : Shape).Idx → EReal)
    (W2 : (⟨2, ![6, 6]⟩ : Shape).Idx → EReal) (b2 : (⟨1, ![6]⟩ : Shape).Idx → EReal)
    (W3 : (⟨2, ![6, 6]⟩ : Shape).Idx → EReal) (b3 : (⟨1, ![6]⟩ : Shape).Idx → EReal)
    (W4 : (⟨2, ![6, 6]⟩ : Shape).Idx → EReal) (b4 : (⟨1, ![6]⟩ : Shape).Idx → EReal)
    (W5 : (⟨2, ![6, 6]⟩ : Shape).Idx → EReal) (b5 : (⟨1, ![6]⟩ : Shape).Idx → EReal)
    (W6 : (⟨2, ![6, 6]⟩ : Shape).Idx → EReal) (b6 : (⟨1, ![6]⟩ : Shape).Idx → EReal)
    (W7 : (⟨2, ![4, 6]⟩ : Shape).Idx → EReal) (b7 : (⟨1, ![4]⟩ : Shape).Idx → EReal)
    (W8 : (⟨2, ![4, 4]⟩ : Shape).Idx → EReal) (b8 : (⟨1, ![4]⟩ : Shape).Idx → EReal)
    (W9 : (⟨2, ![4, 4]⟩ : Shape).Idx → EReal) (b9 : (⟨1, ![4]⟩ : Shape).Idx → EReal)
    (W10 : (⟨2, ![4, 4]⟩ : Shape).Idx → EReal) (b10 : (⟨1, ![4]⟩ : Shape).Idx → EReal)
    (W11 : (⟨2, ![1, 4]⟩ : Shape).Idx → EReal) (b11 : (⟨1, ![1]⟩ : Shape).Idx → EReal)
    (r : Fin 4194304) (q : Fin 1) :
    G x W1 b1 W2 b2 W3 b3 W4 b4 W5 b5 W6 b6 W7 b7 W8 b8 W9 b9 W10 b10 W11 b11 (ix2 r q)
      = mlpRow (mat W1) (vec b1) (mat W2) (vec b2) (mat W3) (vec b3) (mat W4) (vec b4) (mat W5) (vec b5)
          (mat W6) (vec b6) (mat W7) (vec b7) (mat W8) (vec b8) (mat W9) (vec b9) (mat W10) (vec b10) (mat W11) (vec b11)
          (fun c => x (ix2 r c)) q := rfl

end MlpSpec

end
-- ==== Proof.KernelPayload.lean ====
/-
  What the kernel's body stores, read at one entry.

  The body loads a block of 8192 rows of `x`, the eleven weight matrices and the eleven biases (each bias as a
  one-row matrix), applies the eleven layers — product with the weights over both second axes into a zero
  accumulator, bias row repeated down the rows, logistic — and stores the last layer's 8192 × 1 result. Its stored
  value at row `p` is therefore the network `mlpRow` of row `p` of the loaded block, whatever the other rows hold.
-/
import proofs.«106735_j21981642621237_2_alg».proof.Proof.Gen.KernelIdeal.Skeleton
import proofs.«106735_j21981642621237_2_alg».proof.Proof.LibDenseSigmoid
import proofs.«106735_j21981642621237_2_alg».proof.Proof.Spec

noncomputable section

namespace Cert.KernelIdeal.Body

open Cert.KernelIdeal Cert.KernelIdeal.Gen Idealize.ShloMosaic Idealize.ShloMosaic.ValueIdx DenseSigmoid MlpSpec

/-- The stored vector at `(p, q)`: the eleven layers on row `p` of the block of `x`, peeled from the last layer
    inwards; each layer is `DenseSigmoid.vectorLayer_apply`, and a layer's output at an entry needs its input row
    only (`dense_congr`). -/
theorem payload_apply (x0 : FVec Ideal S8192x8 .f32) (x1 : FVec Ideal S6x8 .f32) (x2 : FVec Ideal S1x6 .f32) (x3 : FVec Ideal S6x6 .f32) (x4 : FVec Ideal S1x6 .f32) (x5 : FVec Ideal S6x6 .f32) (x6 : FVec Ideal S1x6 .f32) (x7 : FVec Ideal S6x6 .f32) (x8 : FVec Ideal S1x6 .f32) (x9 : FVec Ideal S6x6 .f32) (x10 : FVec Ideal S1x6 .f32) (x11 : FVec Ideal S6x6 .f32) (x12 : FVec Ideal S1x6 .f32) (x13 : FVec Ideal S4x6 .f32) (x14 : FVec Ideal S1x4 .f32) (x15 : FVec Ideal S4x4 .f32) (x16 : FVec Ideal S1x4 .f32) (x17 : FVec Ideal S4x4 .f32) (x18 : FVec Ideal S1x4 .f32) (x19 : FVec Ideal S4x4 .f32) (x20 : FVec Ideal S1x4 .f32) (x21 : FVec Ideal S1x4 .f32) (x22 : FVec Ideal S1x1 .f32)
    (p : Fin 8192) (q : Fin 1) :
    k0_pay1 (F := Ideal) (k0_pay4 (k0_pay2 x0 x1 x2 x3 x4 x5 x6 x7 x8) x9 (k0_pay3 x10) (constant S8192x6 .f32 0x00000000#32)
        x11 x12 x13 x14 x15 x16 x17 x18) x19 (k0_pay5 x20) (constant S8192x4 .f32 0x00000000#32) x21 x22 (ix2 p q)
      = mlpRow (mat x1) (row x2) (mat x3) (row x4) (mat x5) (row x6) (mat x7) (row x8) (mat x9) (row x10) (mat x11) (row x12) (mat x13) (row x14) (mat x15) (row x16) (mat x17) (row x18) (mat x19) (row x20) (mat x21) (row x22) (fun c => x0 (ix2 p c)) q := by
  unfold k0_pay1 k0_pay4 k0_pay2 k0_pay3 k0_pay5 mlpRow
  refine (vectorLayer_apply dot_S8192x4_S1x4_S8192x1_1_1_0_0_n_n rfl rfl rfl rfl rfl rfl rfl rfl none
      shapeCasts_S1x1_S1x1 broadcasts_S1x1_S8192x1 _ x21 x22 p q).trans ?_
  refine congrFun (dense_congr _ _ fun c11 => ?_) q
  refine (vectorLayer_apply dot_S8192x4_S4x4_S8192x4_1_1_0_0_n_n rfl rfl rfl rfl rfl rfl rfl rfl none
      shapeCasts_S1x4_S1x4 broadcasts_S1x4_S8192x4 _ x19 x20 p c11).trans ?_
  refine congrFun (dense_congr _ _ fun c10 => ?_) c11
  refine (vectorLayer_apply dot_S8192x4_S4x4_S8192x4_1_1_0_0_n_n rfl rfl rfl rfl rfl rfl rfl rfl none
      shapeCasts_S1x4_S1x4 broadcasts_S1x4_S8192x4 _ x17 x18 p c10).trans ?_
  refine congrFun (dense_congr _ _ fun c9 => ?_) c10
  refine (vectorLayer_apply dot_S8192x4_S4x4_S8192x4_1_1_0_0_n_n rfl rfl rfl rfl rfl rfl rfl rfl none
      shapeCasts_S1x4_S1x4 broadcasts_S1x4_S8192x4 _ x15 x16 p c9).trans ?_
  refine congrFun (dense_congr _ _ fun c8 => ?_) c9
  refine (vectorLayer_apply dot_S8192x6_S4x6_S8192x4_1_1_0_0_n_n rfl rfl rfl rfl rfl rfl rfl rfl none
      shapeCasts_S1x4_S1x4 broadcasts_S1x4_S8192x4 _ x13 x14 p c8).trans ?_
  refine congrFun (dense_congr _ _ fun c7 => ?_) c8
  refine (vectorLayer_apply dot_S8192x6_S6x6_S8192x6_1_1_0_0_n_n rfl rfl rfl rfl rfl rfl rfl rfl none
      shapeCasts_S1x6_S1x6 broadcasts_S1x6_S8192x6 _ x11 x12 p c7).trans ?_
  refine congrFun (dense_congr _ _ fun c6 => ?_) c7
  refine (vectorLayer_apply dot_S8192x6_S6x6_S8192x6_1_1_0_0_n_n rfl rfl rfl rfl rfl rfl rfl rfl none
      shapeCasts_S1x6_S1x6 broadcasts_S1x6_S8192x6 _ x9 x10 p c6).trans ?_
  refine congrFun (dense_congr _ _ fun c5 => ?_) c6
  refine (vectorLayer_apply dot_S8192x6_S6x6_S8192x6_1_1_0_0_n_n rfl rfl rfl rfl rfl rfl rfl rfl none
      shapeCasts_S1x6_S1x6 broadcasts_S1x6_S8192x6 _ x7 x8 p c5).trans ?_
  refine congrFun (dense_congr _ _ fun c4 => ?_) c5
  refine (vectorLayer_apply dot_S8192x6_S6x6_S8192x6_1_1_0_0_n_n rfl rfl rfl rfl rfl rfl rfl rfl none
      shapeCasts_S1x6_S1x6 broadcasts_S1x6_S8192x6 _ x5 x6 p c4).trans ?_
  refine congrFun (dense_congr _ _ fun c3 => ?_) c4
  refine (vectorLayer_apply dot_S8192x6_S6x6_S8192x6_1_1_0_0_n_n rfl rfl rfl rfl rfl rfl rfl rfl none
      shapeCasts_S1x6_S1x6 broadcasts_S1x6_S8192x6 _ x3 x4 p c3).trans ?_
  refine congrFun (dense_congr _ _ fun c2 => ?_) c3
  refine (vectorLayer_apply dot_S8192x8_S6x8_S8192x6_1_1_0_0_n_n rfl rfl rfl rfl rfl rfl rfl rfl none
      shapeCasts_S1x6_S1x6 broadcasts_S1x6_S8192x6 _ x1 x2 p c2).trans ?_
  rfl

end Cert.KernelIdeal.Body

end
-- ==== Proof.KernelValue.lean ====
/-
  From the blocks to the whole result array of the kernel.

  The kernel runs on a grid of 512 points. Point `t` stages rows `t·8192 … t·8192 + 8191` of `x` (all eight columns),
  every weight matrix whole, every bias whole as the one-row matrix the host reshaped it to before the call, and
  writes back rows `t·8192 … t·8192 + 8191` of the 4194304 × 1 result. Since an entry of the network's result depends
  on its own row of `x` only, what point `t` writes back is block `t` of the one whole-array function `MlpSpec.G` of the
  argument arrays; the 512 blocks cover the result array (row `r` lies in block `r / 8192`), so the array after the
  run is `G`.
-/
import proofs.«106735_j21981642621237_2_alg».proof.Proof.Gen.KernelIdeal.Value
import proofs.«106735_j21981642621237_2_alg».proof.Proof.KernelPayload

noncomputable section

namespace Cert.KernelIdeal.Whole

open Cert.KernelIdeal Cert.KernelIdeal.Gen Idealize.ShloMosaic Idealize.ShloMosaic.TcCoe Idealize.SL.Sem
  Idealize.ShloMosaic.ValueIdx DenseSigmoid MlpSpec
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Where each window's block sits, decided over the 512 grid points -/

/-- The block of `x` at point `t` is block row `t`, block column 0. -/
theorem index_x : ∀ t : Fin cfg0.N, win0_0.index t (0 : Fin 2) = t.val ∧ win0_0.index t (1 : Fin 2) = 0 :=
  (by decide +kernel : ∀ t : Fin grid0.N, _)
/-- The block of the result at point `t` is block row `t`, block column 0. -/
theorem index_out : ∀ t : Fin cfg0.N, win0_23.index t (0 : Fin 2) = t.val ∧ win0_23.index t (1 : Fin 2) = 0 :=
  (by decide +kernel : ∀ t : Fin grid0.N, _)
/-- Window 1 (a weight matrix) is staged whole at every point. -/
theorem index_1 : ∀ t : Fin cfg0.N, win0_1.index t (0 : Fin 2) = 0 ∧ win0_1.index t (1 : Fin 2) = 0 :=
  (by decide +kernel : ∀ t : Fin grid0.N, _)
/-- Window 2 (a bias row) is staged whole at every point. -/
theorem index_2 : ∀ t : Fin cfg0.N, win0_2.index t (0 : Fin 2) = 0 ∧ win0_2.index t (1 : Fin 2) = 0 :=
  (by decide +kernel : ∀ t : Fin grid0.N, _)
/-- Window 3 (a weight matrix) is staged whole at every point. -/
theorem index_3 : ∀ t : Fin cfg0.N, win0_3.index t (0 : Fin 2) = 0 ∧ win0_3.index t (1 : Fin 2) = 0 :=
  (by decide +kernel : ∀ t : Fin grid0.N, _)
/-- Window 4 (a bias row) is staged whole at every point. -/
theorem index_4 : ∀ t : Fin cfg0.N, win0_4.index t (0 : Fin 2) = 0 ∧ win0_4.index t (1 : Fin 2) = 0 :=
  (by decide +kernel : ∀ t : Fin grid0.N, _)
/-- Window 5 (a weight matrix) is staged whole at every point. -/
theorem index_5 : ∀ t : Fin cfg0.N, win0_5.index t (0 : Fin 2) = 0 ∧ win0_5.index t (1 : Fin 2) = 0 :=
  (by decide +kernel : ∀ t : Fin grid0.N, _)
/-- Window 6 (a bias row) is staged whole at every point. -/
theorem index_6 : ∀ t : Fin cfg0.N, win0_6.index t (0 : Fin 2) = 0 ∧ win0_6.index t (1 : Fin 2) = 0 :=
  (by decide +kernel : ∀ t : Fin grid0.N, _)
/-- Window 7 (a weight matrix) is staged whole at every point. -/
theorem index_7 : ∀ t : Fin cfg0.N, win0_7.index t (0 : Fin 2) = 0 ∧ win0_7.index t (1 : Fin 2) = 0 :=
  (by decide +kernel : ∀ t : Fin grid0.N, _)
/-- Window 8 (a bias row) is staged whole at every point. -/
theorem index_8 : ∀ t : Fin cfg0.N, win0_8.index t (0 : Fin 2) = 0 ∧ win0_8.index t (1 : Fin 2) = 0 :=
  (by decide +kernel : ∀ t : Fin grid0.N, _)
/-- Window 9 (a weight matrix) is staged whole at every point. -/
theorem index_9 : ∀ t : Fin cfg0.N, win0_9.index t (0 : Fin 2) = 0 ∧ win0_9.index t (1 : Fin 2) = 0 :=
  (by decide +kernel : ∀ t : Fin grid0.N, _)
/-- Window 10 (a bias row) is staged whole at every point. -/
theorem index_10 : ∀ t : Fin cfg0.N, win0_10.index t (0 : Fin 2) = 0 ∧ win0_10.index t (1 : Fin 2) = 0 :=
  (by decide +kernel : ∀ t : Fin grid0.N, _)
/-- Window 11 (a weight matrix) is staged whole at every point. -/
theorem index_11 : ∀ t : Fin cfg0.N, win0_11.index t (0 : Fin 2) = 0 ∧ win0_11.index t (1 : Fin 2) = 0 :=
  (by decide +kernel : ∀ t : Fin grid0.N, _)
/-- Window 12 (a bias row) is staged whole at every point. -/
theorem index_12 : ∀ t : Fin cfg0.N, win0_12.index t (0 : Fin 2) = 0 ∧ win0_12.index t (1 : Fin 2) = 0 :=
  (by decide +kernel : ∀ t : Fin grid0.N, _)
/-- Window 13 (a weight matrix) is staged whole at every point. -/
theorem index_13 : ∀ t : Fin cfg0.N, win0_13.index t (0 : Fin 2) = 0 ∧ win0_13.index t (1 : Fin 2) = 0 :=
  (by decide +kernel : ∀ t : Fin grid0.N, _)
/-- Window 14 (a bias row) is staged whole at every point. -/
theorem index_14 : ∀ t : Fin cfg0.N, win0_14.index t (0 : Fin 2) = 0 ∧ win0_14.index t (1 : Fin 2) = 0 :=
  (by decide +kernel : ∀ t : Fin grid0.N, _)
/-- Window 15 (a weight matrix) is staged whole at every point. -/
theorem index_15 : ∀ t : Fin cfg0.N, win0_15.index t (0 : Fin 2) = 0 ∧ win0_15.index t (1 : Fin 2) = 0 :=
  (by decide +kernel : ∀ t : Fin grid0.N, _)
/-- Window 16 (a bias row) is staged whole at every point. -/
theorem index_16 : ∀ t : Fin cfg0.N, win0_16.index t (0 : Fin 2) = 0 ∧ win0_16.index t (1 : Fin 2) = 0 :=
  (by decide +kernel : ∀ t : Fin grid0.N, _)
/-- Window 17 (a weight matrix) is staged whole at every point. -/
theorem index_17 : ∀ t : Fin cfg0.N, win0_17.index t (0 : Fin 2) = 0 ∧ win0_17.index t (1 : Fin 2) = 0 :=
  (by decide +kernel : ∀ t : Fin grid0.N, _)
/-- Window 18 (a bias row) is staged whole at every point. -/
theorem index_18 : ∀ t : Fin cfg0.N, win0_18.index t (0 : Fin 2) = 0 ∧ win0_18.index t (1 : Fin 2) = 0 :=
  (by decide +kernel : ∀ t : Fin grid0.N, _)
/-- Window 19 (a weight matrix) is staged whole at every point. -/
theorem index_19 : ∀ t : Fin cfg0.N, win0_19.index t (0 : Fin 2) = 0 ∧ win0_19.index t (1 : Fin 2) = 0 :=
  (by decide +kernel : ∀ t : Fin grid0.N, _)
/-- Window 20 (a bias row) is staged whole at every point. -/
theorem index_20 : ∀ t : Fin cfg0.N, win0_20.index t (0 : Fin 2) = 0 ∧ win0_20.index t (1 : Fin 2) = 0 :=
  (by decide +kernel : ∀ t : Fin grid0.N, _)
/-- Window 21 (a weight matrix) is staged whole at every point. -/
theorem index_21 : ∀ t : Fin cfg0.N, win0_21.index t (0 : Fin 2) = 0 ∧ win0_21.index t (1 : Fin 2) = 0 :=
  (by decide +kernel : ∀ t : Fin grid0.N, _)
/-- Window 22 (a bias row) is staged whole at every point. -/
theorem index_22 : ∀ t : Fin cfg0.N, win0_22.index t (0 : Fin 2) = 0 ∧ win0_22.index t (1 : Fin 2) = 0 :=
  (by decide +kernel : ∀ t : Fin grid0.N, _)

theorem point_lt (t : Fin cfg0.N) : t.val < 512 := lt_of_lt_of_eq t.isLt N_0

/-! ## The bias rows the host wrote before the call -/

/-- The one-row matrix of bias 1: the host's reshape of the bias vector. -/
theorem biasRow1 (c : Dev nD) : (V m c main_v0 : S1x6.Idx → EReal)
    = shapeCast S1x6 (m ((c : Thread nD τ).loc main_arg2)) shapeCasts_S6_S1x6 := by
  dsimp only [Gen.V, Gen.hostOps0]; after_results; rfl

/-- The one-row matrix of bias 2: the host's reshape of the bias vector. -/
theorem biasRow2 (c : Dev nD) : (V m c main_v1 : S1x6.Idx → EReal)
    = shapeCast S1x6 (m ((c : Thread nD τ).loc main_arg4)) shapeCasts_S6_S1x6 := by
  dsimp only [Gen.V, Gen.hostOps0]; after_results; rfl

/-- The one-row matrix of bias 3: the host's reshape of the bias vector. -/
theorem biasRow3 (c : Dev nD) : (V m c main_v2 : S1x6.Idx → EReal)
    = shapeCast S1x6 (m ((c : Thread nD τ).loc main_arg6)) shapeCasts_S6_S1x6 := by
  dsimp only [Gen.V, Gen.hostOps0]; after_results; rfl

/-- The one-row matrix of bias 4: the host's reshape of the bias vector. -/
theorem biasRow4 (c : Dev nD) : (V m c main_v3 : S1x6.Idx → EReal)
    = shapeCast S1x6 (m ((c : Thread nD τ).loc main_arg8)) shapeCasts_S6_S1x6 := by
  dsimp only [Gen.V, Gen.hostOps0]; after_results; rfl

/-- The one-row matrix of bias 5: the host's reshape of the bias vector. -/
theorem biasRow5 (c : Dev nD) : (V m c main_v4 : S1x6.Idx → EReal)
    = shapeCast S1x6 (m ((c : Thread nD τ).loc main_arg10)) shapeCasts_S6_S1x6 := by
  dsimp only [Gen.V, Gen.hostOps0]; after_results; rfl

/-- The one-row matrix of bias 6: the host's reshape of the bias vector. -/
theorem biasRow6 (c : Dev nD) : (V m c main_v5 : S1x6.Idx → EReal)
    = shapeCast S1x6 (m ((c : Thread nD τ).loc main_arg12)) shapeCasts_S6_S1x6 := by
  dsimp only [Gen.V, Gen.hostOps0]; after_results; rfl

/-- The one-row matrix of bias 7: the host's reshape of the bias vector. -/
theorem biasRow7 (c : Dev nD) : (V m c main_v6 : S1x4.Idx → EReal)
    = shapeCast S1x4 (m ((c : Thread nD τ).loc main_arg14)) shapeCasts_S4_S1x4 := by
  dsimp only [Gen.V, Gen.hostOps0]; after_results; rfl

/-- The one-row matrix of bias 8: the host's reshape of the bias vector. -/
theorem biasRow8 (c : Dev nD) : (V m c main_v7 : S1x4.Idx → EReal)
    = shapeCast S1x4 (m ((c : Thread nD τ).loc main_arg16)) shapeCasts_S4_S1x4 := by
  dsimp only [Gen.V, Gen.hostOps0]; after_results; rfl

/-- The one-row matrix of bias 9: the host's reshape of the bias vector. -/
theorem biasRow9 (c : Dev nD) : (V m c main_v8 : S1x4.Idx → EReal)
    = shapeCast S1x4 (m ((c : Thread nD τ).loc main_arg18)) shapeCasts_S4_S1x4 := by
  dsimp only [Gen.V, Gen.hostOps0]; after_results; rfl

/-- The one-row matrix of bias 10: the host's reshape of the bias vector. -/
theorem biasRow10 (c : Dev nD) : (V m c main_v9 : S1x4.Idx → EReal)
    = shapeCast S1x4 (m ((c : Thread nD τ).loc main_arg20)) shapeCasts_S4_S1x4 := by
  dsimp only [Gen.V, Gen.hostOps0]; after_results; rfl

/-- The one-row matrix of bias 11: the host's reshape of the bias vector. -/
theorem biasRow11 (c : Dev nD) : (V m c main_v10 : S1x1.Idx → EReal)
    = shapeCast S1x1 (m ((c : Thread nD τ).loc main_arg22)) shapeCasts_S1_S1x1 := by
  dsimp only [Gen.V, Gen.hostOps0]; after_results; rfl

/-! ## Each window's block read at an entry -/

/-- The block of `x` at point `t`, at `(p, e)`: the array's entry at row `t·8192 + p`. -/
theorem read_x (c : Dev nD) (t : Fin cfg0.N) (p : Fin 8192) (e : Fin 8) (r : Fin 4194304) (hr : r.val = t.val * 8192 + p.val) :
    iblk m c 0 t (ix2 p e) = m ((c : Thread nD τ).loc main_arg0) (ix2 r e) := by
  have hemb : ((cfg0.win 0).blk t).view.emb (ix2 p e) = ix2 r e := by
    obtain ⟨e0, e1⟩ := index_x t
    funext a; apply Fin.ext
    match a with
    | ⟨0, _⟩ => show win0_0.index t (0 : Fin 2) * 8192 + 1 * p.val = r.val; omega
    | ⟨1, _⟩ => show win0_0.index t (1 : Fin 2) * 8 + 1 * e.val = e.val; omega
  show V m c main_arg0 (((cfg0.win 0).blk t).view.emb (ix2 p e)) = _
  rw [hemb, V_main_arg0]

/-- Weight matrix 1, staged whole: its block at `(j, e)` is the array's entry there. -/
theorem read_W1 (c : Dev nD) (t : Fin cfg0.N) (j : Fin 6) (e : Fin 8) :
    iblk m c 1 t (ix2 j e) = m ((c : Thread nD τ).loc main_arg1) (ix2 j e) := by
  have hemb : ((cfg0.win 1).blk t).view.emb (ix2 j e) = ix2 j e := by
    obtain ⟨e0, e1⟩ := index_1 t
    funext a; apply Fin.ext
    match a with
    | ⟨0, _⟩ => show win0_1.index t (0 : Fin 2) * 6 + 1 * j.val = j.val; omega
    | ⟨1, _⟩ => show win0_1.index t (1 : Fin 2) * 8 + 1 * e.val = e.val; omega
  show V m c main_arg1 (((cfg0.win 1).blk t).view.emb (ix2 j e)) = _
  rw [hemb, V_main_arg1]

/-- Bias 1, staged whole as a one-row matrix: its block at `(0, j)` is the bias vector's entry `j`. -/
theorem read_b1 (c : Dev nD) (t : Fin cfg0.N) (j : Fin 6) :
    iblk m c 2 t (ix2 (0 : Fin 1) j) = m ((c : Thread nD τ).loc main_arg2) (ix1 j) := by
  have hemb : ((cfg0.win 2).blk t).view.emb (ix2 (0 : Fin 1) j) = ix2 (0 : Fin 1) j := by
    obtain ⟨e0, e1⟩ := index_2 t
    funext a; apply Fin.ext
    match a with
    | ⟨0, _⟩ => show win0_2.index t (0 : Fin 2) * 1 + 1 * 0 = 0; omega
    | ⟨1, _⟩ => show win0_2.index t (1 : Fin 2) * 6 + 1 * j.val = j.val; omega
  show V m c main_v0 (((cfg0.win 2).blk t).view.emb (ix2 (0 : Fin 1) j)) = _
  rw [hemb, biasRow1]
  exact shapeCast_a_1a_apply _ shapeCasts_S6_S1x6 (0 : Fin 1) j

/-- Weight matrix 2, staged whole: its block at `(j, e)` is the array's entry there. -/
theorem read_W2 (c : Dev nD) (t : Fin cfg0.N) (j : Fin 6) (e : Fin 6) :
    iblk m c 3 t (ix2 j e) = m ((c : Thread nD τ).loc main_arg3) (ix2 j e) := by
  have hemb : ((cfg0.win 3).blk t).view.emb (ix2 j e) = ix2 j e := by
    obtain ⟨e0, e1⟩ := index_3 t
    funext a; apply Fin.ext
    match a with
    | ⟨0, _⟩ => show win0_3.index t (0 : Fin 2) * 6 + 1 * j.val = j.val; omega
    | ⟨1, _⟩ => show win0_3.index t (1 : Fin 2) * 6 + 1 * e.val = e.val; omega
  show V m c main_arg3 (((cfg0.win 3).blk t).view.emb (ix2 j e)) = _
  rw [hemb, V_main_arg3]

/-- Bias 2, staged whole as a one-row matrix: its block at `(0, j)` is the bias vector's entry `j`. -/
theorem read_b2 (c : Dev nD) (t : Fin cfg0.N) (j : Fin 6) :
    iblk m c 4 t (ix2 (0 : Fin 1) j) = m ((c : Thread nD τ).loc main_arg4) (ix1 j) := by
  have hemb : ((cfg0.win 4).blk t).view.emb (ix2 (0 : Fin 1) j) = ix2 (0 : Fin 1) j := by
    obtain ⟨e0, e1⟩ := index_4 t
    funext a; apply Fin.ext
    match a with
    | ⟨0, _⟩ => show win0_4.index t (0 : Fin 2) * 1 + 1 * 0 = 0; omega
    | ⟨1, _⟩ => show win0_4.index t (1 : Fin 2) * 6 + 1 * j.val = j.val; omega
  show V m c main_v1 (((cfg0.win 4).blk t).view.emb (ix2 (0 : Fin 1) j)) = _
  rw [hemb, biasRow2]
  exact shapeCast_a_1a_apply _ shapeCasts_S6_S1x6 (0 : Fin 1) j

/-- Weight matrix 3, staged whole: its block at `(j, e)` is the array's entry there. -/
theorem read_W3 (c : Dev nD) (t : Fin cfg0.N) (j : Fin 6) (e : Fin 6) :
    iblk m c 5 t (ix2 j e) = m ((c : Thread nD τ).loc main_arg5) (ix2 j e) := by
  have hemb : ((cfg0.win 5).blk t).view.emb (ix2 j e) = ix2 j e := by
    obtain ⟨e0, e1⟩ := index_5 t
    funext a; apply Fin.ext
    match a with
    | ⟨0, _⟩ => show win0_5.index t (0 : Fin 2) * 6 + 1 * j.val = j.val; omega
    | ⟨1, _⟩ => show win0_5.index t (1 : Fin 2) * 6 + 1 * e.val = e.val; omega
  show V m c main_arg5 (((cfg0.win 5).blk t).view.emb (ix2 j e)) = _
  rw [hemb, V_main_arg5]

/-- Bias 3, staged whole as a one-row matrix: its block at `(0, j)` is the bias vector's entry `j`. -/
theorem read_b3 (c : Dev nD) (t : Fin cfg0.N) (j : Fin 6) :
    iblk m c 6 t (ix2 (0 : Fin 1) j) = m ((c : Thread nD τ).loc main_arg6) (ix1 j) := by
  have hemb : ((cfg0.win 6).blk t).view.emb (ix2 (0 : Fin 1) j) = ix2 (0 : Fin 1) j := by
    obtain ⟨e0, e1⟩ := index_6 t
    funext a; apply Fin.ext
    match a with
    | ⟨0, _⟩ => show win0_6.index t (0 : Fin 2) * 1 + 1 * 0 = 0; omega
    | ⟨1, _⟩ => show win0_6.index t (1 : Fin 2) * 6 + 1 * j.val = j.val; omega
  show V m c main_v2 (((cfg0.win 6).blk t).view.emb (ix2 (0 : Fin 1) j)) = _
  rw [hemb, biasRow3]
  exact shapeCast_a_1a_apply _ shapeCasts_S6_S1x6 (0 : Fin 1) j

/-- Weight matrix 4, staged whole: its block at `(j, e)` is the array's entry there. -/
theorem read_W4 (c : Dev nD) (t : Fin cfg0.N) (j : Fin 6) (e : Fin 6) :
    iblk m c 7 t (ix2 j e) = m ((c : Thread nD τ).loc main_arg7) (ix2 j e) := by
  have hemb : ((cfg0.win 7).blk t).view.emb (ix2 j e) = ix2 j e := by
    obtain ⟨e0, e1⟩ := index_7 t
    funext a; apply Fin.ext
    match a with
    | ⟨0, _⟩ => show win0_7.index t (0 : Fin 2) * 6 + 1 * j.val = j.val; omega
    | ⟨1, _⟩ => show win0_7.index t (1 : Fin 2) * 6 + 1 * e.val = e.val; omega
  show V m c main_arg7 (((cfg0.win 7).blk t).view.emb (ix2 j e)) = _
  rw [hemb, V_main_arg7]

/-- Bias 4, staged whole as a one-row matrix: its block at `(0, j)` is the bias vector's entry `j`. -/
theorem read_b4 (c : Dev nD) (t : Fin cfg0.N) (j : Fin 6) :
    iblk m c 8 t (ix2 (0 : Fin 1) j) = m ((c : Thread nD τ).loc main_arg8) (ix1 j) := by
  have hemb : ((cfg0.win 8).blk t).view.emb (ix2 (0 : Fin 1) j) = ix2 (0 : Fin 1) j := by
    obtain ⟨e0, e1⟩ := index_8 t
    funext a; apply Fin.ext
    match a with
    | ⟨0, _⟩ => show win0_8.index t (0 : Fin 2) * 1 + 1 * 0 = 0; omega
    | ⟨1, _⟩ => show win0_8.index t (1 : Fin 2) * 6 + 1 * j.val = j.val; omega
  show V m c main_v3 (((cfg0.win 8).blk t).view.emb (ix2 (0 : Fin 1) j)) = _
  rw [hemb, biasRow4]
  exact shapeCast_a_1a_apply _ shapeCasts_S6_S1x6 (0 : Fin 1) j

/-- Weight matrix 5, staged whole: its block at `(j, e)` is the array's entry there. -/
theorem read_W5 (c : Dev nD) (t : Fin cfg0.N) (j : Fin 6) (e : Fin 6) :
    iblk m c 9 t (ix2 j e) = m ((c : Thread nD τ).loc main_arg9) (ix2 j e) := by
  have hemb : ((cfg0.win 9).blk t).view.emb (ix2 j e) = ix2 j e := by
    obtain ⟨e0, e1⟩ := index_9 t
    funext a; apply Fin.ext
    match a with
    | ⟨0, _⟩ => show win0_9.index t (0 : Fin 2) * 6 + 1 * j.val = j.val; omega
    | ⟨1, _⟩ => show win0_9.index t (1 : Fin 2) * 6 + 1 * e.val = e.val; omega
  show V m c main_arg9 (((cfg0.win 9).blk t).view.emb (ix2 j e)) = _
  rw [hemb, V_main_arg9]

/-- Bias 5, staged whole as a one-row matrix: its block at `(0, j)` is the bias vector's entry `j`. -/
theorem read_b5 (c : Dev nD) (t : Fin cfg0.N) (j : Fin 6) :
    iblk m c 10 t (ix2 (0 : Fin 1) j) = m ((c : Thread nD τ).loc main_arg10) (ix1 j) := by
  have hemb : ((cfg0.win 10).blk t).view.emb (ix2 (0 : Fin 1) j) = ix2 (0 : Fin 1) j := by
    obtain ⟨e0, e1⟩ := index_10 t
    funext a; apply Fin.ext
    match a with
    | ⟨0, _⟩ => show win0_10.index t (0 : Fin 2) * 1 + 1 * 0 = 0; omega
    | ⟨1, _⟩ => show win0_10.index t (1 : Fin 2) * 6 + 1 * j.val = j.val; omega
  show V m c main_v4 (((cfg0.win 10).blk t).view.emb (ix2 (0 : Fin 1) j)) = _
  rw [hemb, biasRow5]
  exact shapeCast_a_1a_apply _ shapeCasts_S6_S1x6 (0 : Fin 1) j

/-- Weight matrix 6, staged whole: its block at `(j, e)` is the array's entry there. -/
theorem read_W6 (c : Dev nD) (t : Fin cfg0.N) (j : Fin 6) (e : Fin 6) :
    iblk m c 11 t (ix2 j e) = m ((c : Thread nD τ).loc main_arg11) (ix2 j e) := by
  have hemb : ((cfg0.win 11).blk t).view.emb (ix2 j e) = ix2 j e := by
    obtain ⟨e0, e1⟩ := index_11 t
    funext a; apply Fin.ext
    match a with
    | ⟨0, _⟩ => show win0_11.index t (0 : Fin 2) * 6 + 1 * j.val = j.val; omega
    | ⟨1, _⟩ => show win0_11.index t (1 : Fin 2) * 6 + 1 * e.val = e.val; omega
  show V m c main_arg11 (((cfg0.win 11).blk t).view.emb (ix2 j e)) = _
  rw [hemb, V_main_arg11]

/-- Bias 6, staged whole as a one-row matrix: its block at `(0, j)` is the bias vector's entry `j`. -/
theorem read_b6 (c : Dev nD) (t : Fin cfg0.N) (j : Fin 6) :
    iblk m c 12 t (ix2 (0 : Fin 1) j) = m ((c : Thread nD τ).loc main_arg12) (ix1 j) := by
  have hemb : ((cfg0.win 12).blk t).view.emb (ix2 (0 : Fin 1) j) = ix2 (0 : Fin 1) j := by
    obtain ⟨e0, e1⟩ := index_12 t
    funext a; apply Fin.ext
    match a with
    | ⟨0, _⟩ => show win0_12.index t (0 : Fin 2) * 1 + 1 * 0 = 0; omega
    | ⟨1, _⟩ => show win0_12.index t (1 : Fin 2) * 6 + 1 * j.val = j.val; omega
  show V m c main_v5 (((cfg0.win 12).blk t).view.emb (ix2 (0 : Fin 1) j)) = _
  rw [hemb, biasRow6]
  exact shapeCast_a_1a_apply _ shapeCasts_S6_S1x6 (0 : Fin 1) j

/-- Weight matrix 7, staged whole: its block at `(j, e)` is the array's entry there. -/
theorem read_W7 (c : Dev nD) (t : Fin cfg0.N) (j : Fin 4) (e : Fin 6) :
    iblk m c 13 t (ix2 j e) = m ((c : Thread nD τ).loc main_arg13) (ix2 j e) := by
  have hemb : ((cfg0.win 13).blk t).view.emb (ix2 j e) = ix2 j e := by
    obtain ⟨e0, e1⟩ := index_13 t
    funext a; apply Fin.ext
    match a with
    | ⟨0, _⟩ => show win0_13.index t (0 : Fin 2) * 4 + 1 * j.val = j.val; omega
    | ⟨1, _⟩ => show win0_13.index t (1 : Fin 2) * 6 + 1 * e.val = e.val; omega
  show V m c main_arg13 (((cfg0.win 13).blk t).view.emb (ix2 j e)) = _
  rw [hemb, V_main_arg13]

/-- Bias 7, staged whole as a one-row matrix: its block at `(0, j)` is the bias vector's entry `j`. -/
theorem read_b7 (c : Dev nD) (t : Fin cfg0.N) (j : Fin 4) :
    iblk m c 14 t (ix2 (0 : Fin 1) j) = m ((c : Thread nD τ).loc main_arg14) (ix1 j) := by
  have hemb : ((cfg0.win 14).blk t).view.emb (ix2 (0 : Fin 1) j) = ix2 (0 : Fin 1) j := by
    obtain ⟨e0, e1⟩ := index_14 t
    funext a; apply Fin.ext
    match a with
    | ⟨0, _⟩ => show win0_14.index t (0 : Fin 2) * 1 + 1 * 0 = 0; omega
    | ⟨1, _⟩ => show win0_14.index t (1 : Fin 2) * 4 + 1 * j.val = j.val; omega
  show V m c main_v6 (((cfg0.win 14).blk t).view.emb (ix2 (0 : Fin 1) j)) = _
  rw [hemb, biasRow7]
  exact shapeCast_a_1a_apply _ shapeCasts_S4_S1x4 (0 : Fin 1) j

/-- Weight matrix 8, staged whole: its block at `(j, e)` is the array's entry there. -/
theorem read_W8 (c : Dev nD) (t : Fin cfg0.N) (j : Fin 4) (e : Fin 4) :
    iblk m c 15 t (ix2 j e) = m ((c : Thread nD τ).loc main_arg15) (ix2 j e) := by
  have hemb : ((cfg0.win 15).blk t).view.emb (ix2 j e) = ix2 j e := by
    obtain ⟨e0, e1⟩ := index_15 t
    funext a; apply Fin.ext
    match a with
    | ⟨0, _⟩ => show win0_15.index t (0 : Fin 2) * 4 + 1 * j.val = j.val; omega
    | ⟨1, _⟩ => show win0_15.index t (1 : Fin 2) * 4 + 1 * e.val = e.val; omega
  show V m c main_arg15 (((cfg0.win 15).blk t).view.emb (ix2 j e)) = _
  rw [hemb, V_main_arg15]

/-- Bias 8, staged whole as a one-row matrix: its block at `(0, j)` is the bias vector's entry `j`. -/
theorem read_b8 (c : Dev nD) (t : Fin cfg0.N) (j : Fin 4) :
    iblk m c 16 t (ix2 (0 : Fin 1) j) = m ((c : Thread nD τ).loc main_arg16) (ix1 j) := by
  have hemb : ((cfg0.win 16).blk t).view.emb (ix2 (0 : Fin 1) j) = ix2 (0 : Fin 1) j := by
    obtain ⟨e0, e1⟩ := index_16 t
    funext a; apply Fin.ext
    match a with
    | ⟨0, _⟩ => show win0_16.index t (0 : Fin 2) * 1 + 1 * 0 = 0; omega
    | ⟨1, _⟩ => show win0_16.index t (1 : Fin 2) * 4 + 1 * j.val = j.val; omega
  show V m c main_v7 (((cfg0.win 16).blk t).view.emb (ix2 (0 : Fin 1) j)) = _
  rw [hemb, biasRow8]
  exact shapeCast_a_1a_apply _ shapeCasts_S4_S1x4 (0 : Fin 1) j

/-- Weight matrix 9, staged whole: its block at `(j, e)` is the array's entry there. -/
theorem read_W9 (c : Dev nD) (t : Fin cfg0.N) (j : Fin 4) (e : Fin 4) :
    iblk m c 17 t (ix2 j e) = m ((c : Thread nD τ).loc main_arg17) (ix2 j e) := by
  have hemb : ((cfg0.win 17).blk t).view.emb (ix2 j e) = ix2 j e := by
    obtain ⟨e0, e1⟩ := index_17 t
    funext a; apply Fin.ext
    match a with
    | ⟨0, _⟩ => show win0_17.index t (0 : Fin 2) * 4 + 1 * j.val = j.val; omega
    | ⟨1, _⟩ => show win0_17.index t (1 : Fin 2) * 4 + 1 * e.val = e.val; omega
  show V m c main_arg17 (((cfg0.win 17).blk t).view.emb (ix2 j e)) = _
  rw [hemb, V_main_arg17]

/-- Bias 9, staged whole as a one-row matrix: its block at `(0, j)` is the bias vector's entry `j`. -/
theorem read_b9 (c : Dev nD) (t : Fin cfg0.N) (j : Fin 4) :
    iblk m c 18 t (ix2 (0 : Fin 1) j) = m ((c : Thread nD τ).loc main_arg18) (ix1 j) := by
  have hemb : ((cfg0.win 18).blk t).view.emb (ix2 (0 : Fin 1) j) = ix2 (0 : Fin 1) j := by
    obtain ⟨e0, e1⟩ := index_18 t
    funext a; apply Fin.ext
    match a with
    | ⟨0, _⟩ => show win0_18.index t (0 : Fin 2) * 1 + 1 * 0 = 0; omega
    | ⟨1, _⟩ => show win0_18.index t (1 : Fin 2) * 4 + 1 * j.val = j.val; omega
  show V m c main_v8 (((cfg0.win 18).blk t).view.emb (ix2 (0 : Fin 1) j)) = _
  rw [hemb, biasRow9]
  exact shapeCast_a_1a_apply _ shapeCasts_S4_S1x4 (0 : Fin 1) j

/-- Weight matrix 10, staged whole: its block at `(j, e)` is the array's entry there. -/
theorem read_W10 (c : Dev nD) (t : Fin cfg0.N) (j : Fin 4) (e : Fin 4) :
    iblk m c 19 t (ix2 j e) = m ((c : Thread nD τ).loc main_arg19) (ix2 j e) := by
  have hemb : ((cfg0.win 19).blk t).view.emb (ix2 j e) = ix2 j e := by
    obtain ⟨e0, e1⟩ := index_19 t
    funext a; apply Fin.ext
    match a with
    | ⟨0, _⟩ => show win0_19.index t (0 : Fin 2) * 4 + 1 * j.val = j.val; omega
    | ⟨1, _⟩ => show win0_19.index t (1 : Fin 2) * 4 + 1 * e.val = e.val; omega
  show V m c main_arg19 (((cfg0.win 19).blk t).view.emb (ix2 j e)) = _
  rw [hemb, V_main_arg19]

/-- Bias 10, staged whole as a one-row matrix: its block at `(0, j)` is the bias vector's entry `j`. -/
theorem read_b10 (c : Dev nD) (t : Fin cfg0.N) (j : Fin 4) :
    iblk m c 20 t (ix2 (0 : Fin 1) j) = m ((c : Thread nD τ).loc main_arg20) (ix1 j) := by
  have hemb : ((cfg0.win 20).blk t).view.emb (ix2 (0 : Fin 1) j) = ix2 (0 : Fin 1) j := by
    obtain ⟨e0, e1⟩ := index_20 t
    funext a; apply Fin.ext
    match a with
    | ⟨0, _⟩ => show win0_20.index t (0 : Fin 2) * 1 + 1 * 0 = 0; omega
    | ⟨1, _⟩ => show win0_20.index t (1 : Fin 2) * 4 + 1 * j.val = j.val; omega
  show V m c main_v9 (((cfg0.win 20).blk t).view.emb (ix2 (0 : Fin 1) j)) = _
  rw [hemb, biasRow10]
  exact shapeCast_a_1a_apply _ shapeCasts_S4_S1x4 (0 : Fin 1) j

/-- Weight matrix 11, staged whole: its block at `(j, e)` is the array's entry there. -/
theorem read_W11 (c : Dev nD) (t : Fin cfg0.N) (j : Fin 1) (e : Fin 4) :
    iblk m c 21 t (ix2 j e) = m ((c : Thread nD τ).loc main_arg21) (ix2 j e) := by
  have hemb : ((cfg0.win 21).blk t).view.emb (ix2 j e) = ix2 j e := by
    obtain ⟨e0, e1⟩ := index_21 t
    funext a; apply Fin.ext
    match a with
    | ⟨0, _⟩ => show win0_21.index t (0 : Fin 2) * 1 + 1 * j.val = j.val; omega
    | ⟨1, _⟩ => show win0_21.index t (1 : Fin 2) * 4 + 1 * e.val = e.val; omega
  show V m c main_arg21 (((cfg0.win 21).blk t).view.emb (ix2 j e)) = _
  rw [hemb, V_main_arg21]

/-- Bias 11, staged whole as a one-row matrix: its block at `(0, j)` is the bias vector's entry `j`. -/
theorem read_b11 (c : Dev nD) (t : Fin cfg0.N) (j : Fin 1) :
    iblk m c 22 t (ix2 (0 : Fin 1) j) = m ((c : Thread nD τ).loc main_arg22) (ix1 j) := by
  have hemb : ((cfg0.win 22).blk t).view.emb (ix2 (0 : Fin 1) j) = ix2 (0 : Fin 1) j := by
    obtain ⟨e0, e1⟩ := index_22 t
    funext a; apply Fin.ext
    match a with
    | ⟨0, _⟩ => show win0_22.index t (0 : Fin 2) * 1 + 1 * 0 = 0; omega
    | ⟨1, _⟩ => show win0_22.index t (1 : Fin 2) * 1 + 1 * j.val = j.val; omega
  show V m c main_v10 (((cfg0.win 22).blk t).view.emb (ix2 (0 : Fin 1) j)) = _
  rw [hemb, biasRow11]
  exact shapeCast_a_1a_apply _ shapeCasts_S1_S1x1 (0 : Fin 1) j

/-! ## What a point writes back, the cover, the array -/

/-- The network on a row is a function of the matrices, vectors and the row it is given. -/
theorem mlpRow_congr
    {W1 W1' : Fin 6 → Fin 8 → EReal} {b1 b1' : Fin 6 → EReal} {W2 W2' : Fin 6 → Fin 6 → EReal} {b2 b2' : Fin 6 → EReal}
    {W3 W3' : Fin 6 → Fin 6 → EReal} {b3 b3' : Fin 6 → EReal} {W4 W4' : Fin 6 → Fin 6 → EReal} {b4 b4' : Fin 6 → EReal}
    {W5 W5' : Fin 6 → Fin 6 → EReal} {b5 b5' : Fin 6 → EReal} {W6 W6' : Fin 6 → Fin 6 → EReal} {b6 b6' : Fin 6 → EReal}
    {W7 W7' : Fin 4 → Fin 6 → EReal} {b7 b7' : Fin 4 → EReal} {W8 W8' : Fin 4 → Fin 4 → EReal} {b8 b8' : Fin 4 → EReal}
    {W9 W9' : Fin 4 → Fin 4 → EReal} {b9 b9' : Fin 4 → EReal} {W10 W10' : Fin 4 → Fin 4 → EReal} {b10 b10' : Fin 4 → EReal}
    {W11 W11' : Fin 1 → Fin 4 → EReal} {b11 b11' : Fin 1 → EReal} {x x' : Fin 8 → EReal}
    (hW1 : W1 = W1') (hb1 : b1 = b1') (hW2 : W2 = W2') (hb2 : b2 = b2') (hW3 : W3 = W3') (hb3 : b3 = b3')
    (hW4 : W4 = W4') (hb4 : b4 = b4') (hW5 : W5 = W5') (hb5 : b5 = b5') (hW6 : W6 = W6') (hb6 : b6 = b6')
    (hW7 : W7 = W7') (hb7 : b7 = b7') (hW8 : W8 = W8') (hb8 : b8 = b8') (hW9 : W9 = W9') (hb9 : b9 = b9')
    (hW10 : W10 = W10') (hb10 : b10 = b10') (hW11 : W11 = W11') (hb11 : b11 = b11') (hx : x = x') :
    mlpRow W1 b1 W2 b2 W3 b3 W4 b4 W5 b5 W6 b6 W7 b7 W8 b8 W9 b9 W10 b10 W11 b11 x
      = mlpRow W1' b1' W2' b2' W3' b3' W4' b4' W5' b5' W6' b6' W7' b7' W8' b8' W9' b9' W10' b10' W11' b11' x' := by
  subst hW1 hb1 hW2 hb2 hW3 hb3 hW4 hb4 hW5 hb5 hW6 hb6 hW7 hb7 hW8 hb8 hW9 hb9 hW10 hb10 hW11 hb11 hx
  rfl

/-- WHAT POINT `t` WRITES BACK is block `t` of `G` of the argument arrays. -/
theorem flushed_eq (c : Dev nD) (t : Fin cfg0.N) :
    (dats m 0 c).flushed 23 t = ((cfg0.win 23).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  rw [Value.flushed23]
  unfold out0_23
  rw [View.canon_unit_zero zero_offsets]
  simp only [View.ld_unit_zero (S := S8192x8) zero_offsets,
    View.ld_unit_zero (S := S6x8) zero_offsets,
    View.ld_unit_zero (S := S1x6) zero_offsets,
    View.ld_unit_zero (S := S6x6) zero_offsets,
    View.ld_unit_zero (S := S4x6) zero_offsets,
    View.ld_unit_zero (S := S1x4) zero_offsets,
    View.ld_unit_zero (S := S4x4) zero_offsets,
    View.ld_unit_zero (S := S1x1) zero_offsets]
  funext y
  obtain ⟨p, q, rfl⟩ : ∃ (p : Fin 8192) (q : Fin 1), y = ix2 p q := ⟨y 0, y 1, eq_ix2 y⟩
  have ht := point_lt t
  have hemb : ((cfg0.win 23).blk t).view.emb (ix2 p q)
      = ix2 (⟨t.val * 8192 + p.val, by have := p.isLt; omega⟩ : Fin 4194304) q := by
    obtain ⟨e0, e1⟩ := index_out t
    funext a; apply Fin.ext
    match a with
    | ⟨0, _⟩ => show win0_23.index t (0 : Fin 2) * 8192 + 1 * p.val = t.val * 8192 + p.val; omega
    | ⟨1, _⟩ => show win0_23.index t (1 : Fin 2) * 1 + 1 * q.val = q.val; omega
  refine (Body.payload_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p q).trans ?_
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (((cfg0.win 23).blk t).view.emb (ix2 p q))
  rw [hemb, G_apply]
  refine congrFun (mlpRow_congr
    (funext fun j => funext fun e => read_W1 m c t j e) (funext fun j => read_b1 m c t j)
    (funext fun j => funext fun e => read_W2 m c t j e) (funext fun j => read_b2 m c t j)
    (funext fun j => funext fun e => read_W3 m c t j e) (funext fun j => read_b3 m c t j)
    (funext fun j => funext fun e => read_W4 m c t j e) (funext fun j => read_b4 m c t j)
    (funext fun j => funext fun e => read_W5 m c t j e) (funext fun j => read_b5 m c t j)
    (funext fun j => funext fun e => read_W6 m c t j e) (funext fun j => read_b6 m c t j)
    (funext fun j => funext fun e => read_W7 m c t j e) (funext fun j => read_b7 m c t j)
    (funext fun j => funext fun e => read_W8 m c t j e) (funext fun j => read_b8 m c t j)
    (funext fun j => funext fun e => read_W9 m c t j e) (funext fun j => read_b9 m c t j)
    (funext fun j => funext fun e => read_W10 m c t j e) (funext fun j => read_b10 m c t j)
    (funext fun j => funext fun e => read_W11 m c t j e) (funext fun j => read_b11 m c t j)
    (funext fun e => read_x m c t p e ⟨t.val * 8192 + p.val, by have := p.isLt; omega⟩ rfl)) q

/-- An index of the result array is in point `t`'s block iff each coordinate is in the block's range on its axis. -/
theorem mem_blk (t : Fin cfg0.N) (i : S4194304x1.Idx) :
    i ∈ ((cfg0.win 23).blk t).view.set ↔ ∀ a : Fin 2, win0_23.index t a * S8192x1.size a ≤ (i a).val ∧ (i a).val < win0_23.index t a * S8192x1.size a + S8192x1.size a := by
  show i ∈ ((View.whole main_v11).slice (win0_23.rect t)).set ↔ _
  rw [View.set_slice_whole, Rect.mem_set_unit]
  exact Iff.rfl

/-- Every entry of the result array lies in the block of the point its row number divided by 8192 names. -/
theorem cover (i : S4194304x1.Idx) : ∃ t : Fin cfg0.N, (cfg0.win 23).flush t = true ∧ i ∈ ((cfg0.win 23).blk t).view.set := by
  have hi0 : (i 0).val < 4194304 := (i 0).isLt
  have hi1 : (i 1).val < 1 := (i 1).isLt
  have hN : (i 0).val / 8192 < cfg0.N := lt_of_lt_of_eq (by omega : (i 0).val / 8192 < 512) N_0.symm
  refine ⟨⟨(i 0).val / 8192, hN⟩, flush0_23 _, ?_⟩
  rw [mem_blk]
  obtain ⟨e0, e1⟩ := index_out ⟨(i 0).val / 8192, hN⟩
  intro a
  match a with
  | ⟨0, _⟩ =>
    show win0_23.index ⟨(i 0).val / 8192, hN⟩ (0 : Fin 2) * 8192 ≤ (i 0).val ∧ (i 0).val < win0_23.index ⟨(i 0).val / 8192, hN⟩ (0 : Fin 2) * 8192 + 8192
    rw [e0]; show (i 0).val / 8192 * 8192 ≤ (i 0).val ∧ (i 0).val < (i 0).val / 8192 * 8192 + 8192; omega
  | ⟨1, _⟩ =>
    show win0_23.index ⟨(i 0).val / 8192, hN⟩ (1 : Fin 2) * 1 ≤ (i 1).val ∧ (i 1).val < win0_23.index ⟨(i 0).val / 8192, hN⟩ (1 : Fin 2) * 1 + 1
    omega

/-- THE RESULT ARRAY after the run is `G` of the argument arrays. -/
theorem final (c : Dev nD) : (dats m 0 c).arrAt 23 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  (dats m 0 c).arrAt_eq_of_cover 23 _ (fun t _ => flushed_eq m c t) (cover)

/-- The kernel's run with the result array at `G` of the arguments and the arguments unchanged. -/
theorem run : θ_run defs (onTc (τ := τ) (main (F := Ideal))) ⟨m, fun _ => 0, ρ⟩ fun r => ∀ c : Dev nD,
      r.2.mem ((c : Thread nD τ).loc main_v11) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final m c), (h c).2⟩) (Value.run_blocks m ρ)

end Cert.KernelIdeal.Whole

end
-- ==== Proof.ReferenceValue.lean ====
/-
  What the reference computes, as the function `G` of its arguments.

  The reference applies, eleven times, to the whole 4194304-row batch: the product with the transposed weight
  matrix, the bias broadcast down the rows, and 1 / (1 + exp (−z)) written with negate, exponential, add and divide.
  Read at the entry `(r, q)`, each of these layers is `DenseSigmoid.dense` of row `r` of its input
  (`DenseSigmoid.hostLayer_apply`), so the result at `(r, q)` is the network `mlpRow` on row `r` of `x`: the result
  array is `MlpSpec.G` of the argument arrays.
-/
import proofs.«106735_j21981642621237_2_alg».proof.Proof.Gen.ReferenceIdeal.Run
import proofs.«106735_j21981642621237_2_alg».proof.Proof.LibDenseSigmoid
import proofs.«106735_j21981642621237_2_alg».proof.Proof.Spec

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.ValueIdx DenseSigmoid MlpSpec

set_option maxRecDepth 8192 in
/-- The reference's result term is `G` of the arguments: entry by entry, the layers peeled from the last one inwards. -/
theorem result_eq (m : (ℓ : Loc nD τ sig) → Buf (Elt Ideal) ℓ) (c : Dev nD) :
    res_main_v120 (F := Ideal) m c
      = G (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
        (m ((c.tc : Thread nD τ).loc main_arg9)) (m ((c.tc : Thread nD τ).loc main_arg10))
        (m ((c.tc : Thread nD τ).loc main_arg11)) (m ((c.tc : Thread nD τ).loc main_arg12))
        (m ((c.tc : Thread nD τ).loc main_arg13)) (m ((c.tc : Thread nD τ).loc main_arg14))
        (m ((c.tc : Thread nD τ).loc main_arg15)) (m ((c.tc : Thread nD τ).loc main_arg16))
        (m ((c.tc : Thread nD τ).loc main_arg17)) (m ((c.tc : Thread nD τ).loc main_arg18))
        (m ((c.tc : Thread nD τ).loc main_arg19)) (m ((c.tc : Thread nD τ).loc main_arg20))
        (m ((c.tc : Thread nD τ).loc main_arg21)) (m ((c.tc : Thread nD τ).loc main_arg22)) := by
  funext i
  obtain ⟨r, q, rfl⟩ : ∃ (r : Fin 4194304) (q : Fin 1), i = ix2 r q := ⟨i 0, i 1, eq_ix2 i⟩
  refine Eq.trans ?_ (G_apply _ _ _ _ _ _ _ _ _ _ _ _ _ _ _ _ _ _ _ _ _ _ _ r q).symm
  unfold res_main_v120 mlpRow
  refine (hostLayer_apply dot_S4194304x4_S4x1_S4194304x1_1_0_0_1_n_n rfl rfl rfl rfl rfl rfl rfl rfl none
      transposes_S1x4_S4x1_1_0 bcast_S1_S1x1_1 bcast_S1x1_S4194304x1_0_1 bcast_S_S4194304x1 _
      (m ((c.tc : Thread nD τ).loc main_arg21)) (m ((c.tc : Thread nD τ).loc main_arg22)) r q).trans ?_
  refine congrFun (dense_congr _ _ fun c11 => ?_) q
  refine (hostLayer_apply dot_S4194304x4_S4x4_S4194304x4_1_0_0_1_n_n rfl rfl rfl rfl rfl rfl rfl rfl none
      transposes_S4x4_S4x4_1_0 bcast_S4_S1x4_1 bcast_S1x4_S4194304x4_0_1 bcast_S_S4194304x4 _
      (m ((c.tc : Thread nD τ).loc main_arg19)) (m ((c.tc : Thread nD τ).loc main_arg20)) r c11).trans ?_
  refine congrFun (dense_congr _ _ fun c10 => ?_) c11
  refine (hostLayer_apply dot_S4194304x4_S4x4_S4194304x4_1_0_0_1_n_n rfl rfl rfl rfl rfl rfl rfl rfl none
      transposes_S4x4_S4x4_1_0 bcast_S4_S1x4_1 bcast_S1x4_S4194304x4_0_1 bcast_S_S4194304x4 _
      (m ((c.tc : Thread nD τ).loc main_arg17)) (m ((c.tc : Thread nD τ).loc main_arg18)) r c10).trans ?_
  refine congrFun (dense_congr _ _ fun c9 => ?_) c10
  refine (hostLayer_apply dot_S4194304x4_S4x4_S4194304x4_1_0_0_1_n_n rfl rfl rfl rfl rfl rfl rfl rfl none
      transposes_S4x4_S4x4_1_0 bcast_S4_S1x4_1 bcast_S1x4_S4194304x4_0_1 bcast_S_S4194304x4 _
      (m ((c.tc : Thread nD τ).loc main_arg15)) (m ((c.tc : Thread nD τ).loc main_arg16)) r c9).trans ?_
  refine congrFun (dense_congr _ _ fun c8 => ?_) c9
  refine (hostLayer_apply dot_S4194304x6_S6x4_S4194304x4_1_0_0_1_n_n rfl rfl rfl rfl rfl rfl rfl rfl none
      transposes_S4x6_S6x4_1_0 bcast_S4_S1x4_1 bcast_S1x4_S4194304x4_0_1 bcast_S_S4194304x4 _
      (m ((c.tc : Thread nD τ).loc main_arg13)) (m ((c.tc : Thread nD τ).loc main_arg14)) r c8).trans ?_
  refine congrFun (dense_congr _ _ fun c7 => ?_) c8
  refine (hostLayer_apply dot_S4194304x6_S6x6_S4194304x6_1_0_0_1_n_n rfl rfl rfl rfl rfl rfl rfl rfl none
      transposes_S6x6_S6x6_1_0 bcast_S6_S1x6_1 bcast_S1x6_S4194304x6_0_1 bcast_S_S4194304x6 _
      (m ((c.tc : Thread nD τ).loc main_arg11)) (m ((c.tc : Thread nD τ).loc main_arg12)) r c7).trans ?_
  refine congrFun (dense_congr _ _ fun c6 => ?_) c7
  refine (hostLayer_apply dot_S4194304x6_S6x6_S4194304x6_1_0_0_1_n_n rfl rfl rfl rfl rfl rfl rfl rfl none
      transposes_S6x6_S6x6_1_0 bcast_S6_S1x6_1 bcast_S1x6_S4194304x6_0_1 bcast_S_S4194304x6 _
      (m ((c.tc : Thread nD τ).loc main_arg9)) (m ((c.tc : Thread nD τ).loc main_arg10)) r c6).trans ?_
  refine congrFun (dense_congr _ _ fun c5 => ?_) c6
  refine (hostLayer_apply dot_S4194304x6_S6x6_S4194304x6_1_0_0_1_n_n rfl rfl rfl rfl rfl rfl rfl rfl none
      transposes_S6x6_S6x6_1_0 bcast_S6_S1x6_1 bcast_S1x6_S4194304x6_0_1 bcast_S_S4194304x6 _
      (m ((c.tc : Thread nD τ).loc main_arg7)) (m ((c.tc : Thread nD τ).loc main_arg8)) r c5).trans ?_
  refine congrFun (dense_congr _ _ fun c4 => ?_) c5
  refine (hostLayer_apply dot_S4194304x6_S6x6_S4194304x6_1_0_0_1_n_n rfl rfl rfl rfl rfl rfl rfl rfl none
      transposes_S6x6_S6x6_1_0 bcast_S6_S1x6_1 bcast_S1x6_S4194304x6_0_1 bcast_S_S4194304x6 _
      (m ((c.tc : Thread nD τ).loc main_arg5)) (m ((c.tc : Thread nD τ).loc main_arg6)) r c4).trans ?_
  refine congrFun (dense_congr _ _ fun c3 => ?_) c4
  refine (hostLayer_apply dot_S4194304x6_S6x6_S4194304x6_1_0_0_1_n_n rfl rfl rfl rfl rfl rfl rfl rfl none
      transposes_S6x6_S6x6_1_0 bcast_S6_S1x6_1 bcast_S1x6_S4194304x6_0_1 bcast_S_S4194304x6 _
      (m ((c.tc : Thread nD τ).loc main_arg3)) (m ((c.tc : Thread nD τ).loc main_arg4)) r c3).trans ?_
  refine congrFun (dense_congr _ _ fun c2 => ?_) c3
  refine (hostLayer_apply dot_S4194304x8_S8x6_S4194304x6_1_0_0_1_n_n rfl rfl rfl rfl rfl rfl rfl rfl none
      transposes_S6x8_S8x6_1_0 bcast_S6_S1x6_1 bcast_S1x6_S4194304x6_0_1 bcast_S_S4194304x6 _
      (m ((c.tc : Thread nD τ).loc main_arg1)) (m ((c.tc : Thread nD τ).loc main_arg2)) r c2).trans ?_
  rfl

end Cert.ReferenceIdeal.RefValue

end
-- ==== Proof.lean ====
/-
  The certificate: an eleven-layer perceptron with logistic activations on 4194304 rows of eight numbers, computed
  by a kernel that walks the rows in 512 blocks of 8192, against the plain array program.

  Both idealized programs compute, at every row `r`, the same function `MlpSpec.mlpRow` of row `r` of `x` and of the
  weights and biases: layer by layer `h ↦ σ (h · Wᵀ + b)`, where the kernel multiplies by `W` over both second axes
  and applies the logistic operation, and the reference multiplies by the transposed `W` and writes the logistic
  function out as 1 / (1 + exp (−z)). On the extended reals these are one function, with the same sums in the same
  order, so no finiteness of the inputs is used. The kernel's array is assembled from its blocks in
  `Proof/KernelValue.lean` (over the body's stored value, `Proof/KernelPayload.lean`), the reference's in
  `Proof/ReferenceValue.lean`; the layer itself, in both spellings, is `Proof/LibDenseSigmoid.lean`.
  The idealization rewrote nothing in the kernel, so `preserves` has nothing to state.
-/
import proofs.«106735_j21981642621237_2_alg».proof.Defs
import proofs.«106735_j21981642621237_2_alg».proof.Proof.Gen.Kernel
import proofs.«106735_j21981642621237_2_alg».proof.Proof.Gen.Kernel.Frame
import proofs.«106735_j21981642621237_2_alg».proof.Proof.Gen.KernelIdeal
import proofs.«106735_j21981642621237_2_alg».proof.Proof.Gen.KernelIdeal.Frame
import proofs.«106735_j21981642621237_2_alg».proof.Proof.Gen.ReferenceIdeal
import proofs.«106735_j21981642621237_2_alg».proof.Proof.Gen.Pre_finite_inputs
import proofs.«106735_j21981642621237_2_alg».proof.Proof.Gen.KernelIdeal.Value
import proofs.«106735_j21981642621237_2_alg».proof.Proof.Gen.ReferenceIdeal.Run
import proofs.«106735_j21981642621237_2_alg».proof.Proof.KernelValue
import proofs.«106735_j21981642621237_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the arguments both programs end with the result array at `MlpSpec.G` of the
    arguments: the kernel's blocks assembled, and the reference's term read entry by entry. -/
theorem algebraic : Cert.algebraic_KernelIdeal_ReferenceIdeal := by
  intro m ρ m' ρ' _ hagree
  refine ⟨fun c => MlpSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22⟩ := hagree c
  rw [Cert.ReferenceIdeal.RefValue.result_eq, h0, h1, h2, h3, h4, h5, h6, h7, h8, h9, h10, h11, h12, h13, h14, h15, h16, h17, h18, h19, h20, h21, h22]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
